-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x32000 : Shape := ⟨2, ![4096, 32000]⟩
abbrev S32000x4000 : Shape := ⟨2, ![32000, 4000]⟩
abbrev S4000 : Shape := ⟨1, ![4000]⟩
abbrev S4000x4000 : Shape := ⟨2, ![4000, 4000]⟩
abbrev S4000x2000 : Shape := ⟨2, ![4000, 2000]⟩
abbrev S2000 : Shape := ⟨1, ![2000]⟩
abbrev S_ : Shape := ⟨0, ![]⟩

class Facts : Prop where
  bcast_S_S4096x32000 : S_.BroadcastsInDim S4096x32000 (![] : Fin 0 → Fin S4096x32000.rank)
  reducesTo_S4096x32000_S_d0_1 : S4096x32000.ReducesTo [0, 1] S_
  h_S_ : 0 < S_.numel
  bcast_S_S32000x4000 : S_.BroadcastsInDim S32000x4000 (![] : Fin 0 → Fin S32000x4000.rank)
  reducesTo_S32000x4000_S_d0_1 : S32000x4000.ReducesTo [0, 1] S_
  bcast_S_S4000 : S_.BroadcastsInDim S4000 (![] : Fin 0 → Fin S4000.rank)
  reducesTo_S4000_S_d0 : S4000.ReducesTo [0] S_
  bcast_S_S4000x4000 : S_.BroadcastsInDim S4000x4000 (![] : Fin 0 → Fin S4000x4000.rank)
  reducesTo_S4000x4000_S_d0_1 : S4000x4000.ReducesTo [0, 1] S_
  bcast_S_S4000x2000 : S_.BroadcastsInDim S4000x2000 (![] : Fin 0 → Fin S4000x2000.rank)
  reducesTo_S4000x2000_S_d0_1 : S4000x2000.ReducesTo [0, 1] S_
  bcast_S_S2000 : S_.BroadcastsInDim S2000 (![] : Fin 0 → Fin S2000.rank)
  reducesTo_S2000_S_d0 : S2000.ReducesTo [0] S_

variable [Facts]

def fn_part1 {F : FTy → Type} [FloatOps F] (main_arg4 : FVec F S4000 .f32) (main_arg5 : FVec F S4000x2000 .f32) (main_arg6 : FVec F S2000 .f32) (main_v13 : IVec S_ 1) (main_v16 : IVec S4000x4000 1) : IVec S_ 1 :=
  let main_c_5 : IVec S_ 1 := constantI S_ 1 1#1
  let main_v17 : IVec S_ 1 := (fun x v => Host.reduce IntOp.andi x v reducesTo_S4000x4000_S_d0_1 h_S_) main_v16 main_c_5
  let main_v18 : IVec S_ 1 := andi main_v13 main_v17
  let main_v19 : FVec F S4000 .f32 := Host.absf main_arg4
  let main_cst_6 : FVec F S_ .f32 := constant S_ .f32 0x7F800000#32
  let main_v20 : FVec F S4000 .f32 := broadcastInDim S4000 ![] bcast_S_S4000 main_cst_6
  let main_v21 : IVec S4000 1 := cmpf .olt main_v19 main_v20
  let main_c_7 : IVec S_ 1 := constantI S_ 1 1#1
  let main_v22 : IVec S_ 1 := (fun x v => Host.reduce IntOp.andi x v reducesTo_S4000_S_d0 h_S_) main_v21 main_c_7
  let main_v23 : IVec S_ 1 := andi main_v18 main_v22
  let main_v24 : FVec F S4000x2000 .f32 := Host.absf main_arg5
  let main_cst_8 : FVec F S_ .f32 := constant S_ .f32 0x7F800000#32
  let main_v25 : FVec F S4000x2000 .f32 := broadcastInDim S4000x2000 ![] bcast_S_S4000x2000 main_cst_8
  let main_v26 : IVec S4000x2000 1 := cmpf .olt main_v24 main_v25
  let main_c_9 : IVec S_ 1 := constantI S_ 1 1#1
  let main_v27 : IVec S_ 1 := (fun x v => Host.reduce IntOp.andi x v reducesTo_S4000x2000_S_d0_1 h_S_) main_v26 main_c_9
  let main_v28 : IVec S_ 1 := andi main_v23 main_v27
  let main_v29 : FVec F S2000 .f32 := Host.absf main_arg6
  let main_cst_10 : FVec F S_ .f32 := constant S_ .f32 0x7F800000#32
  let main_v30 : FVec F S2000 .f32 := broadcastInDim S2000 ![] bcast_S_S2000 main_cst_10
  let main_v31 : IVec S2000 1 := cmpf .olt main_v29 main_v30
  let main_c_11 : IVec S_ 1 := constantI S_ 1 1#1
  let main_v32 : IVec S_ 1 := (fun x v => Host.reduce IntOp.andi x v reducesTo_S2000_S_d0 h_S_) main_v31 main_c_11
  let main_v33 : IVec S_ 1 := andi main_v28 main_v32
  main_v33

def fn {F : FTy → Type} [FloatOps F] (main_arg0 : FVec F S4096x32000 .f32) (main_arg1 : FVec F S32000x4000 .f32) (main_arg2 : FVec F S4000 .f32) (main_arg3 : FVec F S4000x4000 .f32) (main_arg4 : FVec F S4000 .f32) (main_arg5 : FVec F S4000x2000 .f32) (main_arg6 : FVec F S2000 .f32) : IVec S_ 1 :=
  let main_v0 : FVec F S4096x32000 .f32 := Host.absf main_arg0
  let main_cst : FVec F S_ .f32 := constant S_ .f32 0x7F800000#32
  let main_v1 : FVec F S4096x32000 .f32 := broadcastInDim S4096x32000 ![] bcast_S_S4096x32000 main_cst
  let main_v2 : IVec S4096x32000 1 := cmpf .olt main_v0 main_v1
  let main_c : IVec S_ 1 := constantI S_ 1 1#1
  let main_v3 : IVec S_ 1 := (fun x v => Host.reduce IntOp.andi x v reducesTo_S4096x32000_S_d0_1 h_S_) main_v2 main_c
  let main_v4 : FVec F S32000x4000 .f32 := Host.absf main_arg1
  let main_cst_0 : FVec F S_ .f32 := constant S_ .f32 0x7F800000#32
  let main_v5 : FVec F S32000x4000 .f32 := broadcastInDim S32000x4000 ![] bcast_S_S32000x4000 main_cst_0
  let main_v6 : IVec S32000x4000 1 := cmpf .olt main_v4 main_v5
  let main_c_1 : IVec S_ 1 := constantI S_ 1 1#1
  let main_v7 : IVec S_ 1 := (fun x v => Host.reduce IntOp.andi x v reducesTo_S32000x4000_S_d0_1 h_S_) main_v6 main_c_1
  let main_v8 : IVec S_ 1 := andi main_v3 main_v7
  let main_v9 : FVec F S4000 .f32 := Host.absf main_arg2
  let main_cst_2 : FVec F S_ .f32 := constant S_ .f32 0x7F800000#32
  let main_v10 : FVec F S4000 .f32 := broadcastInDim S4000 ![] bcast_S_S4000 main_cst_2
  let main_v11 : IVec S4000 1 := cmpf .olt main_v9 main_v10
  let main_c_3 : IVec S_ 1 := constantI S_ 1 1#1
  let main_v12 : IVec S_ 1 := (fun x v => Host.reduce IntOp.andi x v reducesTo_S4000_S_d0 h_S_) main_v11 main_c_3
  let main_v13 : IVec S_ 1 := andi main_v8 main_v12
  let main_v14 : FVec F S4000x4000 .f32 := Host.absf main_arg3
  let main_cst_4 : FVec F S_ .f32 := constant S_ .f32 0x7F800000#32
  let main_v15 : FVec F S4000x4000 .f32 := broadcastInDim S4000x4000 ![] bcast_S_S4000x4000 main_cst_4
  let main_v16 : IVec S4000x4000 1 := cmpf .olt main_v14 main_v15
  fn_part1 (F := F) main_arg4 main_arg5 main_arg6 main_v13 main_v16
-- ==== Kernel.lean ====
abbrev S4096x32000 : Shape := ⟨2, ![4096, 32000]⟩
abbrev S32000x4000 : Shape := ⟨2, ![32000, 4000]⟩
abbrev S4000 : Shape := ⟨1, ![4000]⟩
abbrev S4000x4000 : Shape := ⟨2, ![4000, 4000]⟩
abbrev S4000x2000 : Shape := ⟨2, ![4000, 2000]⟩
abbrev S2000 : Shape := ⟨1, ![2000]⟩
abbrev S_ : Shape := ⟨0, ![]⟩
abbrev S32000x4096 : Shape := ⟨2, ![32000, 4096]⟩
abbrev S4096 : Shape := ⟨1, ![4096]⟩
abbrev S4096x4096 : Shape := ⟨2, ![4096, 4096]⟩
abbrev S4096x2000 : Shape := ⟨2, ![4096, 2000]⟩
abbrev S1x4096 : Shape := ⟨2, ![1, 4096]⟩
abbrev S2048x128 : Shape := ⟨2, ![2048, 128]⟩
abbrev S128x2048 : Shape := ⟨2, ![128, 2048]⟩
abbrev S1x2048 : Shape := ⟨2, ![1, 2048]⟩
abbrev S2048x2048 : Shape := ⟨2, ![2048, 2048]⟩
abbrev S1x2000 : Shape := ⟨2, ![1, 2000]⟩
abbrev S128x2000 : Shape := ⟨2, ![128, 2000]⟩
abbrev S2048x2000 : Shape := ⟨2, ![2048, 2000]⟩

abbrev nBuf : Space → Nat
  | .hbm => 28
  | .vmem => 20
  | .smem => 0
  | _ => 0

abbrev bufTy : (tb : Table) → Fin (tcTables nBuf tb) → BufTy
  | .hbm, ⟨0, _⟩ => ⟨S4096x32000, .f32⟩
  | .hbm, ⟨1, _⟩ => ⟨S32000x4000, .f32⟩
  | .hbm, ⟨2, _⟩ => ⟨S4000, .f32⟩
  | .hbm, ⟨3, _⟩ => ⟨S4000x4000, .f32⟩
  | .hbm, ⟨4, _⟩ => ⟨S4000, .f32⟩
  | .hbm, ⟨5, _⟩ => ⟨S4000x2000, .f32⟩
  | .hbm, ⟨6, _⟩ => ⟨S2000, .f32⟩
  | .hbm, ⟨7, _⟩ => ⟨S_, .i32⟩
  | .hbm, ⟨8, _⟩ => ⟨S_, .f32⟩
  | .hbm, ⟨9, _⟩ => ⟨S32000x4096, .f32⟩
  | .hbm, ⟨10, _⟩ => ⟨S_, .i32⟩
  | .hbm, ⟨11, _⟩ => ⟨S_, .f32⟩
  | .hbm, ⟨12, _⟩ => ⟨S4096, .f32⟩
  | .hbm, ⟨13, _⟩ => ⟨S_, .i32⟩
  | .hbm, ⟨14, _⟩ => ⟨S_, .f32⟩
  | .hbm, ⟨15, _⟩ => ⟨S4096x4096, .f32⟩
  | .hbm, ⟨16, _⟩ => ⟨S_, .i32⟩
  | .hbm, ⟨17, _⟩ => ⟨S_, .f32⟩
  | .hbm, ⟨18, _⟩ => ⟨S4096, .f32⟩
  | .hbm, ⟨19, _⟩ => ⟨S_, .i32⟩
  | .hbm, ⟨20, _⟩ => ⟨S_, .f32⟩
  | .hbm, ⟨21, _⟩ => ⟨S4096x2000, .f32⟩
  | .hbm, ⟨22, _⟩ => ⟨S1x4096, .f32⟩
  | .hbm, ⟨23, _⟩ => ⟨S4096x4096, .f32⟩
  | .hbm, ⟨24, _⟩ => ⟨S1x4096, .f32⟩
  | .hbm, ⟨25, _⟩ => ⟨S4096x4096, .f32⟩
  | .hbm, ⟨26, _⟩ => ⟨S1x2000, .f32⟩
  | .hbm, ⟨27, _⟩ => ⟨S4096x2000, .f32⟩
  | .local _ .vmem, ⟨0, _⟩ => ⟨S2048x128, .f32⟩
  | .local _ .vmem, ⟨1, _⟩ => ⟨S2048x128, .f32⟩
  | .local _ .vmem, ⟨2, _⟩ => ⟨S128x2048, .f32⟩
  | .local _ .vmem, ⟨3, _⟩ => ⟨S128x2048, .f32⟩
  | .local _ .vmem, ⟨4, _⟩ => ⟨S1x2048, .f32⟩
  | .local _ .vmem, ⟨5, _⟩ => ⟨S1x2048, .f32⟩
  | .local _ .vmem, ⟨6, _⟩ => ⟨S2048x2048, .f32⟩
  | .local _ .vmem, ⟨7, _⟩ => ⟨S2048x128, .f32⟩
  | .local _ .vmem, ⟨8, _⟩ => ⟨S2048x128, .f32⟩
  | .local _ .vmem, ⟨9, _⟩ => ⟨S128x2048, .f32⟩
  | .local _ .vmem, ⟨10, _⟩ => ⟨S128x2048, .f32⟩
  | .local _ .vmem, ⟨11, _⟩ => ⟨S1x2048, .f32⟩
  | .local _ .vmem, ⟨12, _⟩ => ⟨S1x2048, .f32⟩
  | .local _ .vmem, ⟨13, _⟩ => ⟨S2048x2048, .f32⟩
  | .local _ .vmem, ⟨14, _⟩ => ⟨S2048x128, .f32⟩
  | .local _ .vmem, ⟨15, _⟩ => ⟨S2048x128, .f32⟩
  | .local _ .vmem, ⟨16, _⟩ => ⟨S128x2000, .f32⟩
  | .local _ .vmem, ⟨17, _⟩ => ⟨S128x2000, .f32⟩
  | .local _ .vmem, ⟨18, _⟩ => ⟨S1x2000, .f32⟩
  | .local _ .vmem, ⟨19, _⟩ => ⟨S2048x2000, .f32⟩
  | _, _ => ⟨S4096x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_c_0 : Ref sig .tc := ⟨.hbm, 10, rfl⟩
abbrev main_call1_v0 : Ref sig .tc := ⟨.hbm, 11, rfl⟩
abbrev main_v1 : Ref sig .tc := ⟨.hbm, 12, rfl⟩
abbrev main_c_1 : Ref sig .tc := ⟨.hbm, 13, rfl⟩
abbrev main_call2_v0 : Ref sig .tc := ⟨.hbm, 14, rfl⟩
abbrev main_v2 : Ref sig .tc := ⟨.hbm, 15, rfl⟩
abbrev main_c_2 : Ref sig .tc := ⟨.hbm, 16, rfl⟩
abbrev main_call3_v0 : Ref sig .tc := ⟨.hbm, 17, rfl⟩
abbrev main_v3 : Ref sig .tc := ⟨.hbm, 18, rfl⟩
abbrev main_c_3 : Ref sig .tc := ⟨.hbm, 19, rfl⟩
abbrev main_call4_v0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19

abbrev nD : Nat := 1
abbrev τ : Topo := Topo.v7x

variable {F : FTy → Type} [FloatOps F]

abbrev grid0 : Pipeline.Grid := ⟨3, ![2, 2, 250], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 1 → Memref sig .tc .vmem S2048x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]

abbrev grid1 : Pipeline.Grid := ⟨3, ![2, 2, 32], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S128x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 1 → Memref sig .tc .vmem S2048x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true, true, false]

abbrev grid2 : Pipeline.Grid := ⟨3, ![2, 1, 32], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S128x2000 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 1 → Memref sig .tc .vmem S1x2000 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, true, false]

abbrev stage2_3 : Fin 1 → Memref sig .tc .vmem S2048x2000 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true, true, false]

class Facts₀ : Prop where
  pads_S32000x4000_S32000x4096_000_0960 : S32000x4000.Pads (![0, 0] : Fin 2 → Nat) ![0, 96] ![0, 0] S32000x4096
  h_S_ : 0 < S_.numel
  pads_S4000_S4096_0960 : S4000.Pads (![0] : Fin 1 → Nat) ![96] ![0] S4096
  pads_S4000x4000_S4096x4096_0960_0960 : S4000x4000.Pads (![0, 0] : Fin 2 → Nat) ![96, 96] ![0, 0] S4096x4096
  pads_S4000x2000_S4096x2000_0960_000 : S4000x2000.Pads (![0, 0] : Fin 2 → Nat) ![96, 0] ![0, 0] S4096x2000
  shapeCasts_S4096_S1x4096 : S4096.ShapeCasts S1x4096
  inb_S2048x2048_S2048x2048_0_0 : ∀ a, (![0, 0] : Fin 2 → Nat) a + S2048x2048.size a ≤ S2048x2048.size a
  h_S2048x2048 : 0 < S2048x2048.numel
  inb_S2048x128_S2048x128_0_0 : ∀ a, (![0, 0] : Fin 2 → Nat) a + S2048x128.size a ≤ S2048x128.size a
  h_S2048x128 : 0 < S2048x128.numel
  bitsLt_bf16_f32 : FTy.bits .bf16 < FTy.bits .f32
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S2048x2048 : S1x2048.Broadcasts S2048x2048
  shapeCasts_S2048x128_S2048x128 : S2048x128.ShapeCasts S2048x128
  shapeCasts_S2000_S1x2000 : S2000.ShapeCasts S1x2000
  inb_S2048x2000_S2048x2000_0_0 : ∀ a, (![0, 0] : Fin 2 → Nat) a + S2048x2000.size a ≤ S2048x2000.size a
  h_S2048x2000 : 0 < S2048x2000.numel
  inb_S128x2000_S128x2000_0_0 : ∀ a, (![0, 0] : Fin 2 → Nat) a + S128x2000.size a ≤ S128x2000.size a
  h_S128x2000 : 0 < S128x2000.numel
  shapeCasts_S128x2000_S128x2000 : S128x2000.ShapeCasts S128x2000
  shapeCasts_S2048x2000_S2048x2000 : S2048x2000.ShapeCasts S2048x2000
  inb_S1x2000_S1x2000_0_0 : ∀ a, (![0, 0] : Fin 2 → Nat) a + S1x2000.size a ≤ S1x2000.size a
  h_S1x2000 : 0 < S1x2000.numel
  shapeCasts_S1x2000_S1x2000 : S1x2000.ShapeCasts S1x2000
  broadcasts_S1x2000_S2048x2000 : S1x2000.Broadcasts S2048x2000
  dot_S2048x128_S128x2048_S2048x2048_1_0_0_1_n_n_wf : DotDims.WF S2048x128 S128x2048 S2048x2048 [1] [0] [0] [1] [] []
  dot_S2048x128_S128x2000_S2048x2000_1_0_0_1_n_n_wf : DotDims.WF S2048x128 S128x2000 S2048x2000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S4096x32000.size a
  hwx0_0 : ∀ i : grid0.Coords, EltTy.bits .f32 = 32 ∨ (Rect.block (s := S4096x32000) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S32000x4096.size a
  hwx0_1 : ∀ i : grid0.Coords, EltTy.bits .f32 = 32 ∨ (Rect.block (s := S32000x4096) S128x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x4096.size a
  hwx0_2 : ∀ i : grid0.Coords, EltTy.bits .f32 = 32 ∨ (Rect.block (s := S1x4096) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S4096x4096.size a
  hwx0_3 : ∀ i : grid0.Coords, EltTy.bits .f32 = 32 ∨ (Rect.block (s := S4096x4096) S2048x2048.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S4096x4096.size a
  hwx1_0 : ∀ i : grid1.Coords, EltTy.bits .f32 = 32 ∨ (Rect.block (s := S4096x4096) S2048x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x2048.size a ≤ S4096x4096.size a
  hwx1_1 : ∀ i : grid1.Coords, EltTy.bits .f32 = 32 ∨ (Rect.block (s := S4096x4096) S128x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x4096.size a
  hwx1_2 : ∀ i : grid1.Coords, EltTy.bits .f32 = 32 ∨ (Rect.block (s := S1x4096) S1x2048.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2048x2048.size a ≤ S4096x4096.size a
  hwx1_3 : ∀ i : grid1.Coords, EltTy.bits .f32 = 32 ∨ (Rect.block (s := S4096x4096) S2048x2048.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x128.size a ≤ S4096x4096.size a
  hwx2_0 : ∀ i : grid2.Coords, EltTy.bits .f32 = 32 ∨ (Rect.block (s := S4096x4096) S2048x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S128x2000.size a ≤ S4096x2000.size a
  hwx2_1 : ∀ i : grid2.Coords, EltTy.bits .f32 = 32 ∨ (Rect.block (s := S4096x2000) S128x2000.size (cc2_transform_1 i) (hinb2_1 i)).WholeWords (EltTy.packing .f32)
  hstage2_2 : ∀ j, (stage2_2 j).IsWhole
  nbuf2_2 : grid2.bufCount reads2_2 false = 1
  hreads2_2 : ∀ i i' : grid2.Coords, (∀ a, reads2_2 a = true → i a = i' a) → cc2_transform_2 i = cc2_transform_2 i'
  hinb2_2 : ∀ (i : grid2.Coords) a, (cc2_transform_2 i a + 1) * S1x2000.size a ≤ S1x2000.size a
  hwx2_2 : ∀ i : grid2.Coords, EltTy.bits .f32 = 32 ∨ (Rect.block (s := S1x2000) S1x2000.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S2048x2000.size a ≤ S4096x2000.size a
  hwx2_3 : ∀ i : grid2.Coords, EltTy.bits .f32 = 32 ∨ (Rect.block (s := S4096x2000) S2048x2000.size (cc2_transform_3 i) (hinb2_3 i)).WholeWords (EltTy.packing .f32)

variable [Facts₀]

def dot_S2048x128_S128x2048_S2048x2048_1_0_0_1_n_n : DotDims S2048x128 S128x2048 S2048x2048 where
  lhsContracting := [1]
  rhsContracting := [0]
  lhsNonContracting := [0]
  rhsNonContracting := [1]
  lhsBatch := []
  rhsBatch := []
  wf := dot_S2048x128_S128x2048_S2048x2048_1_0_0_1_n_n_wf
def dot_S2048x128_S128x2000_S2048x2000_1_0_0_1_n_n : DotDims S2048x128 S128x2000 S2048x2000 where
  lhsContracting := [1]
  rhsContracting := [0]
  lhsNonContracting := [0]
  rhsNonContracting := [1]
  lhsBatch := []
  rhsBatch := []
  wf := dot_S2048x128_S128x2000_S2048x2000_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S2048x2048.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v6) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S128x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S2048x2048.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v8) S2048x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S128x2000.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v9) S1x2000.size cc2_transform_2 reads2_2 false false 1 stage2_2 sem2_2
    hrank2 hreads2_2 hinb2_2 nbuf2_2 (Memref.isWhole_whole _) hwx2_2 hstage2_2

abbrev win2_3 : Pipeline.Window sig grid2 :=
  Pipeline.Window.ofSpec (Memref.whole main_v10) S2048x2000.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4096x32000 : Shape := ⟨2, ![4096, 32000]⟩
abbrev S32000x4000 : Shape := ⟨2, ![32000, 4000]⟩
abbrev S4000 : Shape := ⟨1, ![4000]⟩
abbrev S4000x4000 : Shape := ⟨2, ![4000, 4000]⟩
abbrev S4000x2000 : Shape := ⟨2, ![4000, 2000]⟩
abbrev S2000 : Shape := ⟨1, ![2000]⟩
abbrev S4096x4000 : Shape := ⟨2, ![4096, 4000]⟩
abbrev S1x4000 : Shape := ⟨2, ![1, 4000]⟩
abbrev S_ : Shape := ⟨0, ![]⟩
abbrev S4096x2000 : Shape := ⟨2, ![4096, 2000]⟩
abbrev S1x2000 : Shape := ⟨2, ![1, 2000]⟩

abbrev nBuf : Space → Nat
  | .hbm => 25
  | .vmem => 0
  | .smem => 0
  | _ => 0

abbrev bufTy : (tb : Table) → Fin (tcTables nBuf tb) → BufTy
  | .hbm, ⟨0, _⟩ => ⟨S4096x32000, .f32⟩
  | .hbm, ⟨1, _⟩ => ⟨S32000x4000, .f32⟩
  | .hbm, ⟨2, _⟩ => ⟨S4000, .f32⟩
  | .hbm, ⟨3, _⟩ => ⟨S4000x4000, .f32⟩
  | .hbm, ⟨4, _⟩ => ⟨S4000, .f32⟩
  | .hbm, ⟨5, _⟩ => ⟨S4000x2000, .f32⟩
  | .hbm, ⟨6, _⟩ => ⟨S2000, .f32⟩
  | .hbm, ⟨7, _⟩ => ⟨S4096x4000, .f32⟩
  | .hbm, ⟨8, _⟩ => ⟨S1x4000, .f32⟩
  | .hbm, ⟨9, _⟩ => ⟨S4096x4000, .f32⟩
  | .hbm, ⟨10, _⟩ => ⟨S4096x4000, .f32⟩
  | .hbm, ⟨11, _⟩ => ⟨S4096x4000, .f32⟩
  | .hbm, ⟨12, _⟩ => ⟨S1x4000, .f32⟩
  | .hbm, ⟨13, _⟩ => ⟨S4096x4000, .f32⟩
  | .hbm, ⟨14, _⟩ => ⟨S4096x4000, .f32⟩
  | .hbm, ⟨15, _⟩ => ⟨S_, .f32⟩
  | .hbm, ⟨16, _⟩ => ⟨S4096x4000, .f32⟩
  | .hbm, ⟨17, _⟩ => ⟨S4096x4000, .f32⟩
  | .hbm, ⟨18, _⟩ => ⟨S4096x2000, .f32⟩
  | .hbm, ⟨19, _⟩ => ⟨S1x2000, .f32⟩
  | .hbm, ⟨20, _⟩ => ⟨S4096x2000, .f32⟩
  | .hbm, ⟨21, _⟩ => ⟨S4096x2000, .f32⟩
  | .hbm, ⟨22, _⟩ => ⟨S_, .f32⟩
  | .hbm, ⟨23, _⟩ => ⟨S4096x2000, .f32⟩
  | .hbm, ⟨24, _⟩ => ⟨S4096x2000, .f32⟩
  | _, _ => ⟨S4096x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call0_cst : Ref sig .tc := ⟨.hbm, 15, rfl⟩
abbrev main_call0_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call1_cst : Ref sig .tc := ⟨.hbm, 22, rfl⟩
abbrev main_call1_v0 : Ref sig .tc := ⟨.hbm, 23, rfl⟩
abbrev main_v13 : Ref sig .tc := ⟨.hbm, 24, rfl⟩

abbrev nD : Nat := 1
abbrev τ : Topo := Topo.v7x

variable {F : FTy → Type} [FloatOps F]

class Facts₀ : Prop where
  bcast_S4000_S1x4000_1 : S4000.BroadcastsInDim S1x4000 (![1] : Fin 1 → Fin S1x4000.rank)
  bcast_S1x4000_S4096x4000_0_1 : S1x4000.BroadcastsInDim S4096x4000 (![0, 1] : Fin 2 → Fin S4096x4000.rank)
  bcast_S_S4096x4000 : S_.BroadcastsInDim S4096x4000 (![] : Fin 0 → Fin S4096x4000.rank)
  bcast_S2000_S1x2000_1 : S2000.BroadcastsInDim S1x2000 (![1] : Fin 1 → Fin S1x2000.rank)
  bcast_S1x2000_S4096x2000_0_1 : S1x2000.BroadcastsInDim S4096x2000 (![0, 1] : Fin 2 → Fin S4096x2000.rank)
  bcast_S_S4096x2000 : S_.BroadcastsInDim S4096x2000 (![] : Fin 0 → Fin S4096x2000.rank)
  dot_S4096x32000_S32000x4000_S4096x4000_1_0_0_1_n_n_wf : DotDims.WF S4096x32000 S32000x4000 S4096x4000 [1] [0] [0] [1] [] []
  dot_S4096x4000_S4000x4000_S4096x4000_1_0_0_1_n_n_wf : DotDims.WF S4096x4000 S4000x4000 S4096x4000 [1] [0] [0] [1] [] []
  dot_S4096x4000_S4000x2000_S4096x2000_1_0_0_1_n_n_wf : DotDims.WF S4096x4000 S4000x2000 S4096x2000 [1] [0] [0] [1] [] []

variable [Facts₀]

def dot_S4096x32000_S32000x4000_S4096x4000_1_0_0_1_n_n : DotDims S4096x32000 S32000x4000 S4096x4000 where
  lhsContracting := [1]
  rhsContracting := [0]
  lhsNonContracting := [0]
  rhsNonContracting := [1]
  lhsBatch := []
  rhsBatch := []
  wf := dot_S4096x32000_S32000x4000_S4096x4000_1_0_0_1_n_n_wf
def dot_S4096x4000_S4000x4000_S4096x4000_1_0_0_1_n_n : DotDims S4096x4000 S4000x4000 S4096x4000 where
  lhsContracting := [1]
  rhsContracting := [0]
  lhsNonContracting := [0]
  rhsNonContracting := [1]
  lhsBatch := []
  rhsBatch := []
  wf := dot_S4096x4000_S4000x4000_S4096x4000_1_0_0_1_n_n_wf
def dot_S4096x4000_S4000x2000_S4096x2000_1_0_0_1_n_n : DotDims S4096x4000 S4000x2000 S4096x2000 where
  lhsContracting := [1]
  rhsContracting := [0]
  lhsNonContracting := [0]
  rhsNonContracting := [1]
  lhsBatch := []
  rhsBatch := []
  wf := dot_S4096x4000_S4000x2000_S4096x2000_1_0_0_1_n_n_wf

class Facts : Prop extends Facts₀ where

variable [Facts]
-- ==== Proof.KernelRun.lean ====
/-
  The idealized kernel's run with its result named: every weakly fair execution of @main terminates, nothing
  faulting, and in the final state the result buffer holds what the last region's write-backs leave there, the
  arguments as launched. The final state has every unscoped buffer at the contents the fold of host stretches and
  regions ends with; the frame claim reads the arguments off it, and this statement reads the result buffer too.
-/
import proofs.«153553_j64785286692881_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer at the last boundary's contents, each argument as launched. -/
theorem run : θ_run defs (onTc (τ := τ) (main (F := F))) ⟨m, fun _ => 0, ρ⟩ (fun r => ∀ c : Dev nD,
      r.2.mem ((c.tc : Thread nD τ).loc main_v10) = W16 m ρ c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v10 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c)⟩)

end Cert.KernelIdeal.Named

end
-- ==== Proof.KernelFold.lean ====
/-
  The buffers each region finds, read back through the host operations before it. No host operation and no
  region writes an argument; each padded array is the zero padding of its argument, written once and then left
  alone; each bias row is its padded (or plain) vector reshaped to one row; and each later region's input is the
  array the region before it left.
-/
import proofs.«153553_j64785286692881_1_alg».proof.Proof.Gen.KernelIdeal.Frame
import Idealize.ShloMosaic.Lib.StableHlo.Run

noncomputable section

namespace Cert.KernelIdeal.Fold

open Cert.KernelIdeal Cert.KernelIdeal.Gen Idealize.ShloMosaic Idealize.ShloMosaic.TcCoe Idealize.SL.Sem Idealize.ShloMosaic.StableHlo

variable {F : FTy → Type} [FloatOps F]

/-- A stretch of host operations leaves alone every buffer none of its operations writes. -/
macro "not_written" : tactic => `(tactic| exact StableHlo.after_of_forall_not_mem _ _ (List.forall_iff_forall_mem.mp (by
  simp only [hostOps0, hostOps0_1, hostOps0_2, hostOps0_3, hostOps0_4, hostOps0_5, hostOps0_6, hostOps0_7, hostOps0_8, hostOps0_9, hostOps0_10, hostOps1, hostOps2, List.Forall, StableHlo.nullary_writes, StableHlo.unary_writes, StableHlo.binary_writes, StableHlo.reshape_writes, Finset.mem_singleton]
  repeat' apply And.intro
  all_goals exact StableHlo.devRef_ne_of_ne (by decide))))

/-! ## One stretch at a time, from any contents -/

section Stretches
variable (Wv : Valuation τ sig (Elt F))

theorem zero_c : StableHlo.after (hostOps0 (F := F)) Wv (Proc.devRef .tc main_c) = constantI S_ 32 0#32 := by after_results
theorem zero_c_0 : StableHlo.after (hostOps0_2 (F := F)) Wv (Proc.devRef .tc main_c_0) = constantI S_ 32 0#32 := by after_results
theorem zero_c_1 : StableHlo.after (hostOps0_4 (F := F)) Wv (Proc.devRef .tc main_c_1) = constantI S_ 32 0#32 := by after_results
theorem zero_c_2 : StableHlo.after (hostOps0_6 (F := F)) Wv (Proc.devRef .tc main_c_2) = constantI S_ 32 0#32 := by after_results
theorem zero_c_3 : StableHlo.after (hostOps0_8 (F := F)) Wv (Proc.devRef .tc main_c_3) = constantI S_ 32 0#32 := by after_results

theorem pad_v0 : StableHlo.after (hostOps0_1 (F := F)) Wv (Proc.devRef .tc main_v0)
    = pad S32000x4096 ![0, 0] ![0, 96] ![0, 0] (Wv (Proc.devRef .tc main_arg1)) (sitofp (F := F) .f32 (Wv (Proc.devRef .tc main_c))) pads_S32000x4000_S32000x4096_000_0960 h_S_ := by
  after_results; rfl
theorem pad_v1 : StableHlo.after (hostOps0_3 (F := F)) Wv (Proc.devRef .tc main_v1)
    = pad S4096 ![0] ![96] ![0] (Wv (Proc.devRef .tc main_arg2)) (sitofp (F := F) .f32 (Wv (Proc.devRef .tc main_c_0))) pads_S4000_S4096_0960 h_S_ := by
  after_results; rfl
theorem pad_v2 : StableHlo.after (hostOps0_5 (F := F)) Wv (Proc.devRef .tc main_v2)
    = pad S4096x4096 ![0, 0] ![96, 96] ![0, 0] (Wv (Proc.devRef .tc main_arg3)) (sitofp (F := F) .f32 (Wv (Proc.devRef .tc main_c_1))) pads_S4000x4000_S4096x4096_0960_0960 h_S_ := by
  after_results; rfl
theorem pad_v3 : StableHlo.after (hostOps0_7 (F := F)) Wv (Proc.devRef .tc main_v3)
    = pad S4096 ![0] ![96] ![0] (Wv (Proc.devRef .tc main_arg4)) (sitofp (F := F) .f32 (Wv (Proc.devRef .tc main_c_2))) pads_S4000_S4096_0960 h_S_ := by
  after_results; rfl
theorem pad_v4 : StableHlo.after (hostOps0_9 (F := F)) Wv (Proc.devRef .tc main_v4)
    = pad S4096x2000 ![0, 0] ![96, 0] ![0, 0] (Wv (Proc.devRef .tc main_arg5)) (sitofp (F := F) .f32 (Wv (Proc.devRef .tc main_c_3))) pads_S4000x2000_S4096x2000_0960_000 h_S_ := by
  after_results; rfl

theorem row_v5 : StableHlo.after (hostOps0_10 (F := F)) Wv (Proc.devRef .tc main_v5)
    = shapeCast S1x4096 (Wv (Proc.devRef .tc main_v1)) shapeCasts_S4096_S1x4096 := by
  after_results; rfl
theorem row_v7 : StableHlo.after (hostOps1 (F := F)) Wv (Proc.devRef .tc main_v7)
    = shapeCast S1x4096 (Wv (Proc.devRef .tc main_v3)) shapeCasts_S4096_S1x4096 := by
  after_results; rfl
theorem row_v9 : StableHlo.after (hostOps2 (F := F)) Wv (Proc.devRef .tc main_v9)
    = shapeCast S1x2000 (Wv (Proc.devRef .tc main_arg6)) shapeCasts_S2000_S1x2000 := by
  after_results; rfl

end Stretches

/-! ## Down the fold -/

variable (m : (ℓ : Loc nD τ sig) → Buf (Elt F) ℓ) (ρ : Dev nD → PrngReg) (c : Dev nD)

/-- The input, when region 0 is entered, is as launched. -/
theorem arg0_at11 : W11 m ρ c (Proc.devRef .tc main_arg0) = W0 m ρ c (Proc.devRef .tc main_arg0) :=
  calc W11 m ρ c (Proc.devRef .tc main_arg0)
    _ = W10 m ρ c (Proc.devRef .tc main_arg0) := by not_written
    _ = W9 m ρ c (Proc.devRef .tc main_arg0) := by not_written
    _ = W8 m ρ c (Proc.devRef .tc main_arg0) := by not_written
    _ = W7 m ρ c (Proc.devRef .tc main_arg0) := by not_written
    _ = W6 m ρ c (Proc.devRef .tc main_arg0) := by not_written
    _ = W5 m ρ c (Proc.devRef .tc main_arg0) := by not_written
    _ = W4 m ρ c (Proc.devRef .tc main_arg0) := by not_written
    _ = W3 m ρ c (Proc.devRef .tc main_arg0) := by not_written
    _ = W2 m ρ c (Proc.devRef .tc main_arg0) := by not_written
    _ = W1 m ρ c (Proc.devRef .tc main_arg0) := by not_written
    _ = W0 m ρ c (Proc.devRef .tc main_arg0) := by not_written

/-- The first weights, when they are padded, are as launched. -/
theorem arg1_at1 : W1 m ρ c (Proc.devRef .tc main_arg1) = W0 m ρ c (Proc.devRef .tc main_arg1) :=
  calc W1 m ρ c (Proc.devRef .tc main_arg1)
    _ = W0 m ρ c (Proc.devRef .tc main_arg1) := by not_written

/-- The first bias, when it is padded, is as launched. -/
theorem arg2_at3 : W3 m ρ c (Proc.devRef .tc main_arg2) = W0 m ρ c (Proc.devRef .tc main_arg2) :=
  calc W3 m ρ c (Proc.devRef .tc main_arg2)
    _ = W2 m ρ c (Proc.devRef .tc main_arg2) := by not_written
    _ = W1 m ρ c (Proc.devRef .tc main_arg2) := by not_written
    _ = W0 m ρ c (Proc.devRef .tc main_arg2) := by not_written

/-- The second weights, when they are padded, are as launched. -/
theorem arg3_at5 : W5 m ρ c (Proc.devRef .tc main_arg3) = W0 m ρ c (Proc.devRef .tc main_arg3) :=
  calc W5 m ρ c (Proc.devRef .tc main_arg3)
    _ = W4 m ρ c (Proc.devRef .tc main_arg3) := by not_written
    _ = W3 m ρ c (Proc.devRef .tc main_arg3) := by not_written
    _ = W2 m ρ c (Proc.devRef .tc main_arg3) := by not_written
    _ = W1 m ρ c (Proc.devRef .tc main_arg3) := by not_written
    _ = W0 m ρ c (Proc.devRef .tc main_arg3) := by not_written

/-- The second bias, when it is padded, is as launched. -/
theorem arg4_at7 : W7 m ρ c (Proc.devRef .tc main_arg4) = W0 m ρ c (Proc.devRef .tc main_arg4) :=
  calc W7 m ρ c (Proc.devRef .tc main_arg4)
    _ = W6 m ρ c (Proc.devRef .tc main_arg4) := by not_written
    _ = W5 m ρ c (Proc.devRef .tc main_arg4) := by not_written
    _ = W4 m ρ c (Proc.devRef .tc main_arg4) := by not_written
    _ = W3 m ρ c (Proc.devRef .tc main_arg4) := by not_written
    _ = W2 m ρ c (Proc.devRef .tc main_arg4) := by not_written
    _ = W1 m ρ c (Proc.devRef .tc main_arg4) := by not_written
    _ = W0 m ρ c (Proc.devRef .tc main_arg4) := by not_written

/-- The third weights, when they are padded, are as launched. -/
theorem arg5_at9 : W9 m ρ c (Proc.devRef .tc main_arg5) = W0 m ρ c (Proc.devRef .tc main_arg5) :=
  calc W9 m ρ c (Proc.devRef .tc main_arg5)
    _ = W8 m ρ c (Proc.devRef .tc main_arg5) := by not_written
    _ = W7 m ρ c (Proc.devRef .tc main_arg5) := by not_written
    _ = W6 m ρ c (Proc.devRef .tc main_arg5) := by not_written
    _ = W5 m ρ c (Proc.devRef .tc main_arg5) := by not_written
    _ = W4 m ρ c (Proc.devRef .tc main_arg5) := by not_written
    _ = W3 m ρ c (Proc.devRef .tc main_arg5) := by not_written
    _ = W2 m ρ c (Proc.devRef .tc main_arg5) := by not_written
    _ = W1 m ρ c (Proc.devRef .tc main_arg5) := by not_written
    _ = W0 m ρ c (Proc.devRef .tc main_arg5) := by not_written

/-- The third bias, when it is reshaped, is as launched. -/
theorem arg6_at14 : W14 m ρ c (Proc.devRef .tc main_arg6) = W0 m ρ c (Proc.devRef .tc main_arg6) :=
  calc W14 m ρ c (Proc.devRef .tc main_arg6)
    _ = W13 m ρ c (Proc.devRef .tc main_arg6) := W14_of_ne m ρ c main_arg6 (by decide)
    _ = W12 m ρ c (Proc.devRef .tc main_arg6) := by not_written
    _ = W11 m ρ c (Proc.devRef .tc main_arg6) := W12_of_ne m ρ c main_arg6 (by decide)
    _ = W10 m ρ c (Proc.devRef .tc main_arg6) := by not_written
    _ = W9 m ρ c (Proc.devRef .tc main_arg6) := by not_written
    _ = W8 m ρ c (Proc.devRef .tc main_arg6) := by not_written
    _ = W7 m ρ c (Proc.devRef .tc main_arg6) := by not_written
    _ = W6 m ρ c (Proc.devRef .tc main_arg6) := by not_written
    _ = W5 m ρ c (Proc.devRef .tc main_arg6) := by not_written
    _ = W4 m ρ c (Proc.devRef .tc main_arg6) := by not_written
    _ = W3 m ρ c (Proc.devRef .tc main_arg6) := by not_written
    _ = W2 m ρ c (Proc.devRef .tc main_arg6) := by not_written
    _ = W1 m ρ c (Proc.devRef .tc main_arg6) := by not_written
    _ = W0 m ρ c (Proc.devRef .tc main_arg6) := by not_written

/-- The padded first weights are left alone until region 0. -/
theorem v0_at11 : W11 m ρ c (Proc.devRef .tc main_v0) = W2 m ρ c (Proc.devRef .tc main_v0) :=
  calc W11 m ρ c (Proc.devRef .tc main_v0)
    _ = W10 m ρ c (Proc.devRef .tc main_v0) := by not_written
    _ = W9 m ρ c (Proc.devRef .tc main_v0) := by not_written
    _ = W8 m ρ c (Proc.devRef .tc main_v0) := by not_written
    _ = W7 m ρ c (Proc.devRef .tc main_v0) := by not_written
    _ = W6 m ρ c (Proc.devRef .tc main_v0) := by not_written
    _ = W5 m ρ c (Proc.devRef .tc main_v0) := by not_written
    _ = W4 m ρ c (Proc.devRef .tc main_v0) := by not_written
    _ = W3 m ρ c (Proc.devRef .tc main_v0) := by not_written
    _ = W2 m ρ c (Proc.devRef .tc main_v0) := by not_written

/-- The padded first bias is left alone until it is reshaped. -/
theorem v1_at10 : W10 m ρ c (Proc.devRef .tc main_v1) = W4 m ρ c (Proc.devRef .tc main_v1) :=
  calc W10 m ρ c (Proc.devRef .tc main_v1)
    _ = W9 m ρ c (Proc.devRef .tc main_v1) := by not_written
    _ = W8 m ρ c (Proc.devRef .tc main_v1) := by not_written
    _ = W7 m ρ c (Proc.devRef .tc main_v1) := by not_written
    _ = W6 m ρ c (Proc.devRef .tc main_v1) := by not_written
    _ = W5 m ρ c (Proc.devRef .tc main_v1) := by not_written
    _ = W4 m ρ c (Proc.devRef .tc main_v1) := by not_written

/-- The padded second weights are left alone until region 1. -/
theorem v2_at13 : W13 m ρ c (Proc.devRef .tc main_v2) = W6 m ρ c (Proc.devRef .tc main_v2) :=
  calc W13 m ρ c (Proc.devRef .tc main_v2)
    _ = W12 m ρ c (Proc.devRef .tc main_v2) := by not_written
    _ = W11 m ρ c (Proc.devRef .tc main_v2) := W12_of_ne m ρ c main_v2 (by decide)
    _ = W10 m ρ c (Proc.devRef .tc main_v2) := by not_written
    _ = W9 m ρ c (Proc.devRef .tc main_v2) := by not_written
    _ = W8 m ρ c (Proc.devRef .tc main_v2) := by not_written
    _ = W7 m ρ c (Proc.devRef .tc main_v2) := by not_written
    _ = W6 m ρ c (Proc.devRef .tc main_v2) := by not_written

/-- The padded second bias is left alone until it is reshaped. -/
theorem v3_at12 : W12 m ρ c (Proc.devRef .tc main_v3) = W8 m ρ c (Proc.devRef .tc main_v3) :=
  calc W12 m ρ c (Proc.devRef .tc main_v3)
    _ = W11 m ρ c (Proc.devRef .tc main_v3) := W12_of_ne m ρ c main_v3 (by decide)
    _ = W10 m ρ c (Proc.devRef .tc main_v3) := by not_written
    _ = W9 m ρ c (Proc.devRef .tc main_v3) := by not_written
    _ = W8 m ρ c (Proc.devRef .tc main_v3) := by not_written

/-- The padded third weights are left alone until region 2. -/
theorem v4_at15 : W15 m ρ c (Proc.devRef .tc main_v4) = W10 m ρ c (Proc.devRef .tc main_v4) :=
  calc W15 m ρ c (Proc.devRef .tc main_v4)
    _ = W14 m ρ c (Proc.devRef .tc main_v4) := by not_written
    _ = W13 m ρ c (Proc.devRef .tc main_v4) := W14_of_ne m ρ c main_v4 (by decide)
    _ = W12 m ρ c (Proc.devRef .tc main_v4) := by not_written
    _ = W11 m ρ c (Proc.devRef .tc main_v4) := W12_of_ne m ρ c main_v4 (by decide)
    _ = W10 m ρ c (Proc.devRef .tc main_v4) := by not_written

/-- Region 0's output is left alone until region 1. -/
theorem v6_at13 : W13 m ρ c (Proc.devRef .tc main_v6) = W12 m ρ c (Proc.devRef .tc main_v6) :=
  calc W13 m ρ c (Proc.devRef .tc main_v6)
    _ = W12 m ρ c (Proc.devRef .tc main_v6) := by not_written

/-- Region 1's output is left alone until region 2. -/
theorem v8_at15 : W15 m ρ c (Proc.devRef .tc main_v8) = W14 m ρ c (Proc.devRef .tc main_v8) :=
  calc W15 m ρ c (Proc.devRef .tc main_v8)
    _ = W14 m ρ c (Proc.devRef .tc main_v8) := by not_written

end Cert.KernelIdeal.Fold

end
-- ==== Proof.LibRangeSums.lean ====
/-
  Arrays read by natural-number coordinates, and sums over initial segments of the naturals.

  A rank-1 or rank-2 array of extended reals (or of any type with a zero) is read at natural coordinates, with
  zero outside its extents (`at1`, `at2`); inside the extents the reading is the array's entry. A sum over the
  first `n * b` naturals is the sum, tile by tile, of `n` tiles of `b` consecutive terms (`sum_range_tiles`);
  a sum whose last `p` terms vanish is the sum of the terms before them (`sum_range_zero_tail`); and a sum over
  `Fin n` of a function of the coordinate's value is the sum over the first `n` naturals (`sum_fin_eq_range`).
-/
import Idealize.ShloMosaic.Lib.ValueIdx
import Mathlib.Algebra.BigOperators.Fin

open scoped BigOperators

namespace RangeSums

open Idealize.ShloMosaic Idealize.ShloMosaic.ValueIdx Finset

/-- Entry `(i, j)` of a rank-2 array, zero outside its extents. -/
def at2 {α : Type} [Zero α] {a b : ℕ} (x : (⟨2, ![a, b]⟩ : Shape).Idx → α) (i j : ℕ) : α :=
  if h : i < a ∧ j < b then x (ix2 ⟨i, h.1⟩ ⟨j, h.2⟩) else 0

/-- Entry `i` of a rank-1 array, zero outside its extent. -/
def at1 {α : Type} [Zero α] {a : ℕ} (x : (⟨1, ![a]⟩ : Shape).Idx → α) (i : ℕ) : α :=
  if h : i < a then x (ix1 ⟨i, h⟩) else 0

theorem at2_ix {α : Type} [Zero α] {a b : ℕ} (x : (⟨2, ![a, b]⟩ : Shape).Idx → α) (p : Fin a) (q : Fin b) :
    at2 x p.val q.val = x (ix2 p q) := by
  unfold at2; rw [dif_pos ⟨p.isLt, q.isLt⟩]

theorem at2_of_lt {α : Type} [Zero α] {a b : ℕ} (x : (⟨2, ![a, b]⟩ : Shape).Idx → α) {i j : ℕ} (hi : i < a) (hj : j < b) :
    at2 x i j = x (ix2 ⟨i, hi⟩ ⟨j, hj⟩) := by
  unfold at2; rw [dif_pos ⟨hi, hj⟩]

theorem at2_idx {α : Type} [Zero α] {a b : ℕ} (x : (⟨2, ![a, b]⟩ : Shape).Idx → α) (i : (⟨2, ![a, b]⟩ : Shape).Idx) :
    at2 x (i 0).val (i 1).val = x i := by
  rw [at2_ix x (i 0) (i 1)]; exact congrArg x (eq_ix2 i).symm

theorem at1_ix {α : Type} [Zero α] {a : ℕ} (x : (⟨1, ![a]⟩ : Shape).Idx → α) (p : Fin a) :
    at1 x p.val = x (ix1 p) := by
  unfold at1; rw [dif_pos p.isLt]

theorem at1_of_lt {α : Type} [Zero α] {a : ℕ} (x : (⟨1, ![a]⟩ : Shape).Idx → α) {i : ℕ} (hi : i < a) :
    at1 x i = x (ix1 ⟨i, hi⟩) := by
  unfold at1; rw [dif_pos hi]

/-- Two rank-2 arrays with the same reading at every pair of naturals are equal. -/
theorem ext_at2 {α : Type} [Zero α] {a b : ℕ} (x y : (⟨2, ![a, b]⟩ : Shape).Idx → α)
    (h : ∀ i j, i < a → j < b → at2 x i j = at2 y i j) : x = y := by
  funext i
  rw [← at2_idx x i, ← at2_idx y i]
  exact h _ _ (i 0).isLt (i 1).isLt

/-- The first `n * b` terms, tile by tile: `n` tiles of `b` consecutive terms. -/
theorem sum_range_tiles {M : Type} [AddCommMonoid M] (f : ℕ → M) (n b : ℕ) :
    ∑ k ∈ range (n * b), f k = ∑ t ∈ range n, ∑ r ∈ range b, f (t * b + r) := by
  induction n with
  | zero => simp
  | succ n ih => rw [Nat.succ_mul, sum_range_add, ih, sum_range_succ]

/-- A sum whose last `p` terms vanish is the sum of the terms before them. -/
theorem sum_range_zero_tail {M : Type} [AddCommMonoid M] (f : ℕ → M) (n p : ℕ)
    (h : ∀ k, n ≤ k → k < n + p → f k = 0) :
    ∑ k ∈ range (n + p), f k = ∑ k ∈ range n, f k := by
  rw [sum_range_add, sum_eq_zero (fun x hx => h _ (Nat.le_add_right _ _) (by have := mem_range.mp hx; omega)), add_zero]

/-- A sum over `Fin n` of a function of the coordinate's value is the sum over the first `n` naturals. -/
theorem sum_fin_eq_range {M : Type} [AddCommMonoid M] (f : ℕ → M) (n : ℕ) :
    ∑ k : Fin n, f k.val = ∑ k ∈ range n, f k := (Finset.sum_range f).symm

end RangeSums
-- ==== Proof.Layer0Pieces.lean ====
/-
  Region 0 (the first dense layer, no rectifier): the values the kernel body stores, read at an index at the
  ideal instance. A K-block step adds to the accumulator block, at (r, c), the 128 products of row r of the input
  block with column c of the weight block; the reset stores zero; the last step adds the bias row.
-/
import proofs.«153553_j64785286692881_1_alg».proof.Proof.Gen.KernelIdeal.Frame
import proofs.«153553_j64785286692881_1_alg».proof.Proof.LibRangeSums
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Layer0

open Cert.KernelIdeal Cert.KernelIdeal.Gen Idealize.ShloMosaic Idealize.ShloMosaic.ValueIdx RangeSums

theorem dot_lhs_row (i : S2048x2048.Idx) (q : dot_S2048x128_S128x2048_S2048x2048_1_0_0_1_n_n.contr.Idx) :
    (dot_S2048x128_S128x2048_S2048x2048_1_0_0_1_n_n.lhsIdx i q 0).val = (i 0).val := by
  unfold DotDims.lhsIdx
  rw [dif_neg (show ¬(0 : Fin S2048x128.rank) ∈ dot_S2048x128_S128x2048_S2048x2048_1_0_0_1_n_n.lhsBatch by decide), dif_pos (show (0 : Fin S2048x128.rank) ∈ dot_S2048x128_S128x2048_S2048x2048_1_0_0_1_n_n.lhsNonContracting by decide)]
  rfl
theorem dot_rhs_col (i : S2048x2048.Idx) (q : dot_S2048x128_S128x2048_S2048x2048_1_0_0_1_n_n.contr.Idx) :
    (dot_S2048x128_S128x2048_S2048x2048_1_0_0_1_n_n.rhsIdx i q 1).val = (i 1).val := by
  unfold DotDims.rhsIdx
  rw [dif_neg (show ¬(1 : Fin S128x2048.rank) ∈ dot_S2048x128_S128x2048_S2048x2048_1_0_0_1_n_n.rhsBatch by decide), dif_pos (show (1 : Fin S128x2048.rank) ∈ dot_S2048x128_S128x2048_S2048x2048_1_0_0_1_n_n.rhsNonContracting by decide)]
  rfl

/-- The block product at (r, c): the sum over the 128 contracted positions. -/
theorem matmul_tile (x : FVec Ideal S2048x128 .bf16) (w : FVec Ideal S128x2048 .bf16) (r : Fin 2048) (c : Fin 2048) :
    matmul dot_S2048x128_S128x2048_S2048x2048_1_0_0_1_n_n none x w (constant (F := Ideal) S2048x2048 .f32 0x00000000#32) (ix2 r c)
      = ∑ k : Fin 128, x (ix2 r k) * w (ix2 k c) := by
  simp only [matmul]
  rw [Ideal.matmul_constant_zero_apply, ← Equiv.sum_comp (ValueIdx.contrEquiv1 dot_S2048x128_S128x2048_S2048x2048_1_0_0_1_n_n 128 rfl rfl).symm]
  refine Finset.sum_congr rfl fun k _ => ?_
  have hk := ValueIdx.contrEquiv1_symm_val dot_S2048x128_S128x2048_S2048x2048_1_0_0_1_n_n 128 rfl rfl k
  have el : dot_S2048x128_S128x2048_S2048x2048_1_0_0_1_n_n.lhsIdx (ix2 r c) ((ValueIdx.contrEquiv1 dot_S2048x128_S128x2048_S2048x2048_1_0_0_1_n_n 128 rfl rfl).symm k) = ix2 r k := funext fun a => Fin.ext (by
    match a with
    | ⟨0, _⟩ => exact dot_lhs_row _ _
    | ⟨1, _⟩ => exact (dot_S2048x128_S128x2048_S2048x2048_1_0_0_1_n_n.lhsIdx_val_of_single rfl _ _).trans hk)
  have er : dot_S2048x128_S128x2048_S2048x2048_1_0_0_1_n_n.rhsIdx (ix2 r c) ((ValueIdx.contrEquiv1 dot_S2048x128_S128x2048_S2048x2048_1_0_0_1_n_n 128 rfl rfl).symm k) = ix2 k c := funext fun a => Fin.ext (by
    match a with
    | ⟨0, _⟩ => exact (dot_S2048x128_S128x2048_S2048x2048_1_0_0_1_n_n.rhsIdx_val_of_single rfl _ _).trans hk
    | ⟨1, _⟩ => exact dot_rhs_col _ _)
  rw [el, er]

/-- The reset's value: zero everywhere. -/
theorem pay1_apply (r : Fin 2048) (c : Fin 2048) : k0_pay1 (F := Ideal) (ix2 r c) = 0 := by
  show Ideal.ofBits .f32 0x00000000#32 = 0
  exact Ideal.ofBits_zero_f32

/-- A K-block step at (r, c): the accumulator plus the 128 products of the two blocks. -/
theorem pay2_apply (v3 : Vec Ideal S2048x128 .f32) (v5 : Vec Ideal S128x2048 .f32) (v8 : Vec Ideal S2048x2048 .f32) (r : Fin 2048) (c : Fin 2048) :
    k0_pay2 v3 v5 v8 (ix2 r c) = v8 (ix2 r c) + ∑ k ∈ Finset.range 128, at2 (α := EReal) v3 r.val k * at2 (α := EReal) v5 k c.val := by
  unfold k0_pay2
  rw [addf_apply, shapeCast_self, shapeCast_self, matmul_tile]
  refine congrArg (v8 (ix2 r c) + ·) ?_
  rw [← sum_fin_eq_range (fun k => at2 (α := EReal) v3 r.val k * at2 (α := EReal) v5 k c.val) 128]
  refine Finset.sum_congr rfl fun k _ => ?_
  rw [at2_ix, at2_ix]
  rfl

/-- The last step at (r, c): the accumulated sum plus the bias row's entry c. -/
theorem pay3_apply (v16 : Vec Ideal S2048x2048 .f32) (v18 : Vec Ideal S1x2048 .f32) (r : Fin 2048) (c : Fin 2048) :
    k0_pay3 v16 v18 (ix2 r c) = (v16 (ix2 r c) + at2 (α := EReal) v18 0 c.val) := by
  unfold k0_pay3
  rw [addf_apply, shapeCast_self, shapeCast_self, broadcastTo_1b_ab_apply]
  exact congrArg (v16 (ix2 r c) + ·) (at2_ix (α := EReal) v18 (0 : Fin 1) c).symm

end Cert.KernelIdeal.Layer0

end
-- ==== Proof.Layer0Cases.lean ====
/-
  Region 0: what each control case of the body leaves in the output's block, as a value. At the first K-step
  the block is reset and one step is accumulated into zero; at a middle step one step is accumulated into what the
  step before left; at the last step the bias row is added to the accumulated block.
-/
import proofs.«153553_j64785286692881_1_alg».proof.Proof.Gen.KernelIdeal.Frame
import Idealize.ShloMosaic.Lib.Pipeline.Value
import Idealize.ShloMosaic.Lib.Tactic

noncomputable section

namespace Cert.KernelIdeal.Layer0

open Cert.KernelIdeal Cert.KernelIdeal.Gen Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- A middle step: one K-step accumulated into the block's running contents. -/
theorem out_B (c : Dev nD) (i : grid0.Coords) (a3 : Memref sig .tc .vmem S2048x128 .f32) (h3 : a3.IsWhole) (a4 : Memref sig .tc .vmem S128x2048 .f32) (h4 : a4.IsWhole) (a5 : Memref sig .tc .vmem S1x2048 .f32) (h5 : a5.IsWhole) (a6 : Memref sig .tc .vmem S2048x2048 .f32) (h6 : a6.IsWhole) (hc0 : ¬cond0_0 i) (hc1 : ¬cond0_1 i)
    (x0 : Vec F S2048x128 .f32) (x1 : Vec F S128x2048 .f32) (x2 : Vec F S1x2048 .f32) (xo : Vec F S2048x2048 .f32) :
    out0_B_3 c i a3 h3 a4 h4 a5 h5 a6 h6 hc0 hc1 x0 x1 x2 xo = k0_pay2 x0 x1 xo := by
  unfold out0_B_3
  rw [View.read_writes_eq_canon _ _ _ (cover0_B_3 c i a3 h3 a4 h4 a5 h5 a6 h6 hc0 hc1 x0 x1 x2 xo)]
  unfold kernelRun0_B
  dsimp only
  rw [View.canon_unit_zero hz]
  simp only [View.readAt_eq_ld, h3.read_unread, h4.read_unread, h6.read_unread, View.ld_unit_zero (S := S2048x128) hz,
    View.ld_unit_zero (S := S128x2048) hz, View.ld_unit_zero (S := S2048x2048) hz]

/-- The first step: one K-step accumulated into the zero block the reset stored. -/
theorem out_A (c : Dev nD) (i : grid0.Coords) (a3 : Memref sig .tc .vmem S2048x128 .f32) (h3 : a3.IsWhole) (a4 : Memref sig .tc .vmem S128x2048 .f32) (h4 : a4.IsWhole) (a5 : Memref sig .tc .vmem S1x2048 .f32) (h5 : a5.IsWhole) (a6 : Memref sig .tc .vmem S2048x2048 .f32) (h6 : a6.IsWhole) (hc0 : cond0_0 i) (hc1 : ¬cond0_1 i)
    (x0 : Vec F S2048x128 .f32) (x1 : Vec F S128x2048 .f32) (x2 : Vec F S1x2048 .f32) :
    out0_A_3 c i a3 h3 a4 h4 a5 h5 a6 h6 hc0 hc1 x0 x1 x2 = k0_pay2 x0 x1 (k0_pay1 (F := F)) := by
  unfold out0_A_3
  rw [View.read_writes_eq_canon _ _ _ (cover0_A_3 c i a3 h3 a4 h4 a5 h5 a6 h6 hc0 hc1 x0 x1 x2)]
  unfold kernelRun0_A
  dsimp only
  sl_unfold_words
  rw [View.canon_cons_unit_zero (S := S2048x2048) hz, View.readCov_unit_zero (S := S2048x2048) _ hz]
  simp only [View.readAt_eq_ld, h3.read_unread, h4.read_unread, View.ld_unit_zero (S := S2048x128) hz,
    View.ld_unit_zero (S := S128x2048) hz, View.ld_unit_zero (S := S2048x2048) hz]

/-- The last step: one K-step accumulated, then the bias row added. -/
theorem out_C (c : Dev nD) (i : grid0.Coords) (a3 : Memref sig .tc .vmem S2048x128 .f32) (h3 : a3.IsWhole) (a4 : Memref sig .tc .vmem S128x2048 .f32) (h4 : a4.IsWhole) (a5 : Memref sig .tc .vmem S1x2048 .f32) (h5 : a5.IsWhole) (a6 : Memref sig .tc .vmem S2048x2048 .f32) (h6 : a6.IsWhole) (hc0 : ¬cond0_0 i) (hc1 : cond0_1 i)
    (x0 : Vec F S2048x128 .f32) (x1 : Vec F S128x2048 .f32) (x2 : Vec F S1x2048 .f32) (xo : Vec F S2048x2048 .f32) :
    out0_C_3 c i a3 h3 a4 h4 a5 h5 a6 h6 hc0 hc1 x0 x1 x2 xo = k0_pay3 (k0_pay2 x0 x1 xo) x2 := by
  unfold out0_C_3
  rw [View.read_writes_eq_canon _ _ _ (cover0_C_3 c i a3 h3 a4 h4 a5 h5 a6 h6 hc0 hc1 x0 x1 x2 xo)]
  unfold kernelRun0_C
  dsimp only
  sl_unfold_words
  rw [View.canon_cons_unit_zero (S := S2048x2048) hz, View.readCov_unit_zero (S := S2048x2048) _ hz]
  simp only [View.readAt_eq_ld, h3.read_unread, h4.read_unread, h5.read_unread, h6.read_unread, View.ld_unit_zero (S := S2048x128) hz,
    View.ld_unit_zero (S := S128x2048) hz, View.ld_unit_zero (S := S1x2048) hz, View.ld_unit_zero (S := S2048x2048) hz]

end Cert.KernelIdeal.Layer0

end
-- ==== Proof.LibDenseTiles.lean ====
/-
  A dense layer over arrays read by natural-number coordinates, its contraction summed tile by tile, and the layer
  with zero-padded weights.

  `dense act K x w b i j` is `act (∑ k < K, x i k · w k j + b j)` on the extended reals. `tileSum T x w i j n` is
  the contraction's first `n` tiles of width `T`; it grows by one tile at a time (`tileSum_succ`) and `n` tiles are
  the first `n · T` terms (`tileSum_eq`). If the weights beyond row `K` are zero, contracting over `K + p` rows is
  contracting over `K` (`dense_pad`): a product with zero is zero on the extended reals, whatever the other factor.
  `layer` is the layer as a rank-2 array of rank-2 arrays, the bias a one-row array.
-/
import proofs.«153553_j64785286692881_1_alg».proof.Proof.LibRangeSums
import Mathlib.Data.EReal.Basic

open scoped BigOperators

noncomputable section

namespace DenseTiles

open RangeSums Finset Idealize.ShloMosaic

/-- The first `n` tiles, each of `T` consecutive contracted positions, of the product of row `i` and column `j`. -/
def tileSum (T : ℕ) (x w : ℕ → ℕ → EReal) (i j n : ℕ) : EReal :=
  ∑ t ∈ range n, ∑ r ∈ range T, x i (t * T + r) * w (t * T + r) j

theorem tileSum_zero (T : ℕ) (x w : ℕ → ℕ → EReal) (i j : ℕ) : tileSum T x w i j 0 = 0 := by
  unfold tileSum; rw [sum_range_zero]

theorem tileSum_succ (T : ℕ) (x w : ℕ → ℕ → EReal) (i j n : ℕ) :
    tileSum T x w i j (n + 1) = tileSum T x w i j n + ∑ r ∈ range T, x i (n * T + r) * w (n * T + r) j := by
  unfold tileSum; rw [sum_range_succ]

theorem tileSum_eq (T : ℕ) (x w : ℕ → ℕ → EReal) (i j n : ℕ) :
    tileSum T x w i j n = ∑ k ∈ range (n * T), x i k * w k j :=
  (sum_range_tiles (fun k => x i k * w k j) n T).symm

/-- Entry `(i, j)` of a dense layer: `act` of the contraction over `K` positions plus the bias. -/
def dense (act : EReal → EReal) (K : ℕ) (x w : ℕ → ℕ → EReal) (b : ℕ → EReal) (i j : ℕ) : EReal :=
  act (∑ k ∈ range K, x i k * w k j + b j)

/-- Weights that agree on the first `K` rows and vanish on the next `p`: the longer contraction is the shorter. -/
theorem dense_pad (act : EReal → EReal) (K p : ℕ) (x w wp : ℕ → ℕ → EReal) (b : ℕ → EReal) (i j : ℕ)
    (hw : ∀ k, k < K → wp k j = w k j) (hz : ∀ k, K ≤ k → k < K + p → wp k j = 0) :
    dense act (K + p) x wp b i j = dense act K x w b i j := by
  unfold dense
  rw [sum_range_zero_tail (fun k => x i k * wp k j) K p (fun k h1 h2 => by rw [hz k h1 h2, mul_zero])]
  refine congrArg (fun s => act (s + b j)) (sum_congr rfl fun k hk => ?_)
  rw [hw k (mem_range.mp hk)]

/-- The layer depends on the input only through the entries it contracts. -/
theorem dense_congr (act : EReal → EReal) (K : ℕ) (x x' w : ℕ → ℕ → EReal) (b b' : ℕ → EReal) (i j : ℕ)
    (hx : ∀ k, k < K → x i k = x' i k) (hb : b j = b' j) :
    dense act K x w b i j = dense act K x' w b' i j := by
  unfold dense
  rw [hb]
  refine congrArg (fun s => act (s + b' j)) (sum_congr rfl fun k hk => ?_)
  rw [hx k (mem_range.mp hk)]

/-- The layer as an array: input `[M, K]`, weights `[K, N]`, bias one row `[1, N]`. -/
def layer (act : EReal → EReal) {M K N : ℕ} (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => dense act K (at2 x) (at2 w) (at2 b 0) (i 0).val (i 1).val

theorem at2_layer (act : EReal → EReal) {M K N : ℕ} (x : (⟨2, ![M, K]⟩ : Shape).Idx → EReal) (w : (⟨2, ![K, N]⟩ : Shape).Idx → EReal)
    (b : (⟨2, ![1, N]⟩ : Shape).Idx → EReal) {i j : ℕ} (hi : i < M) (hj : j < N) :
    at2 (layer act x w b) i j = dense act K (at2 x) (at2 w) (at2 b 0) i j := by
  rw [at2_of_lt _ hi hj]; rfl

end DenseTiles

end
-- ==== Proof.Layer0Run.lean ====
/-
  Region 0 (the first dense layer, no rectifier): the output array after the region is the dense layer of the region's three
  input arrays. Point n of the grid is row block n / 500, column block n / 250 % 2, K-step n % 250.
  After point n the output block holds the contraction's first (n % 250) + 1 tiles of 128 positions, and at the
  last K-step the bias row added; the block is written back at the last K-step, and those blocks cover the array.
-/
import proofs.«153553_j64785286692881_1_alg».proof.Proof.Layer0Pieces
import proofs.«153553_j64785286692881_1_alg».proof.Proof.Layer0Cases
import proofs.«153553_j64785286692881_1_alg».proof.Proof.LibDenseTiles

set_option maxRecDepth 16384

noncomputable section

namespace Cert.KernelIdeal.Layer0

open Cert.KernelIdeal Cert.KernelIdeal.Gen Idealize.ShloMosaic Idealize.ShloMosaic.TcCoe Idealize.ShloMosaic.ValueIdx Idealize.SL.Sem
open Idealize.ShloMosaic.Pipeline (Dat)
open RangeSums DenseTiles

variable (V : (c : Dev nD) → (b : Ref sig .tc) → Buf (Elt Ideal) ((c : Thread nD τ).loc b)) (c : Dev nD)

/-- The region's input arrays as it finds them: the input, the weights, the bias row. -/
abbrev arrX : S4096x32000.Idx → EReal := V c main_arg0
abbrev arrW : S32000x4096.Idx → EReal := V c main_v0
abbrev arrB : S1x4096.Idx → EReal := V c main_v5

/-- The printed index maps over the grid. -/
theorem idx_facts : ∀ t : Fin cfg0.N,
    win0_0.index t (0 : Fin 2) = t.val / 500 ∧ win0_0.index t (1 : Fin 2) = t.val % 250
    ∧ win0_1.index t (0 : Fin 2) = t.val % 250 ∧ win0_1.index t (1 : Fin 2) = t.val / 250 % 2
    ∧ win0_2.index t (0 : Fin 2) = 0 ∧ win0_2.index t (1 : Fin 2) = t.val / 250 % 2
    ∧ win0_3.index t (0 : Fin 2) = t.val / 500 ∧ win0_3.index t (1 : Fin 2) = t.val / 250 % 2 :=
  (by decide +kernel : ∀ t : Fin grid0.N, _)

/-- The input block at point n: rows (n / 500)·2048 + r, positions (n % 250)·128 + k of the input. -/
theorem blk0_at (n : ℕ) (h : n < cfg0.N) (r k : ℕ) (hr : r < 2048) (hk : k < 128) :
    at2 (α := EReal) (iblk0 V c 0 ⟨n, h⟩ : Vec Ideal S2048x128 .f32) r k = at2 (arrX V c) (n / 500 * 2048 + r) (n % 250 * 128 + k) := by
  have hN : n < 1000 := lt_of_lt_of_eq h N_0
  obtain ⟨e0, e1, -⟩ := idx_facts ⟨n, h⟩
  dsimp only at e0 e1
  rw [at2_of_lt _ hr hk, at2_of_lt _ (show n / 500 * 2048 + r < 4096 by omega) (show n % 250 * 128 + k < 32000 by omega)]
  unfold iblk0
  rw [View.read_apply]
  show V c main_arg0 _ = V c main_arg0 _
  refine congrArg (V c main_arg0) (funext fun a => Fin.ext ?_)
  match a with
  | ⟨0, _⟩ => show win0_0.index ⟨n, h⟩ (0 : Fin 2) * 2048 + 1 * r = n / 500 * 2048 + r; rw [e0]; omega
  | ⟨1, _⟩ => show win0_0.index ⟨n, h⟩ (1 : Fin 2) * 128 + 1 * k = n % 250 * 128 + k; rw [e1]; omega

/-- The weight block at point n: positions (n % 250)·128 + k, columns (n / 250 % 2)·2048 + j of the weights. -/
theorem blk1_at (n : ℕ) (h : n < cfg0.N) (k j : ℕ) (hk : k < 128) (hj : j < 2048) :
    at2 (α := EReal) (iblk0 V c 1 ⟨n, h⟩ : Vec Ideal S128x2048 .f32) k j = at2 (arrW V c) (n % 250 * 128 + k) (n / 250 % 2 * 2048 + j) := by
  have hN : n < 1000 := lt_of_lt_of_eq h N_0
  obtain ⟨-, -, e0, e1, -⟩ := idx_facts ⟨n, h⟩
  dsimp only at e0 e1
  rw [at2_of_lt _ hk hj, at2_of_lt _ (show n % 250 * 128 + k < 32000 by omega) (show n / 250 % 2 * 2048 + j < 4096 by omega)]
  unfold iblk0
  rw [View.read_apply]
  show V c main_v0 _ = V c main_v0 _
  refine congrArg (V c main_v0) (funext fun a => Fin.ext ?_)
  match a with
  | ⟨0, _⟩ => show win0_1.index ⟨n, h⟩ (0 : Fin 2) * 128 + 1 * k = n % 250 * 128 + k; rw [e0]; omega
  | ⟨1, _⟩ => show win0_1.index ⟨n, h⟩ (1 : Fin 2) * 2048 + 1 * j = n / 250 % 2 * 2048 + j; rw [e1]; omega

/-- The bias block at point n: columns (n / 250 % 2)·2048 + j of the bias row. -/
theorem blk2_at (n : ℕ) (h : n < cfg0.N) (j : ℕ) (hj : j < 2048) :
    at2 (α := EReal) (iblk0 V c 2 ⟨n, h⟩ : Vec Ideal S1x2048 .f32) 0 j = at2 (arrB V c) 0 (n / 250 % 2 * 2048 + j) := by
  have hN : n < 1000 := lt_of_lt_of_eq h N_0
  obtain ⟨-, -, -, -, e0, e1, -⟩ := idx_facts ⟨n, h⟩
  dsimp only at e0 e1
  rw [at2_of_lt _ (show 0 < 1 by omega) hj, at2_of_lt _ (show 0 < 1 by omega) (show n / 250 % 2 * 2048 + j < 4096 by omega)]
  unfold iblk0
  rw [View.read_apply]
  show V c main_v5 _ = V c main_v5 _
  refine congrArg (V c main_v5) (funext fun a => Fin.ext ?_)
  match a with
  | ⟨0, _⟩ => show win0_2.index ⟨n, h⟩ (0 : Fin 2) * 1 + 1 * 0 = 0; rw [e0]
  | ⟨1, _⟩ => show win0_2.index ⟨n, h⟩ (1 : Fin 2) * 2048 + 1 * j = n / 250 % 2 * 2048 + j; rw [e1]; omega

/-- One K-step's 128 products, read off the two blocks, are tile (n % 250) of the contraction. -/
theorem step_at (n : ℕ) (h : n < cfg0.N) (r : Fin 2048) (cc : Fin 2048) :
    ∑ k ∈ Finset.range 128, at2 (α := EReal) (iblk0 V c 0 ⟨n, h⟩ : Vec Ideal S2048x128 .f32) r.val k * at2 (α := EReal) (iblk0 V c 1 ⟨n, h⟩ : Vec Ideal S128x2048 .f32) k cc.val
      = ∑ k ∈ Finset.range 128, at2 (arrX V c) (n / 500 * 2048 + r.val) (n % 250 * 128 + k) * at2 (arrW V c) (n % 250 * 128 + k) (n / 250 % 2 * 2048 + cc.val) :=
  Finset.sum_congr rfl fun k hk => by
    rw [blk0_at V c n h r.val k r.isLt (Finset.mem_range.mp hk), blk1_at V c n h k cc.val (Finset.mem_range.mp hk) cc.isLt]

/-- After point n the output block holds, at (r, cc), the first (n % 250) + 1 tiles of the contraction of input
    row (n / 500)·2048 + r with weight column (n / 250 % 2)·2048 + cc; at the last K-step, the bias added. -/
theorem outsAt_eq (n : ℕ) : ∀ (h : n < cfg0.N) (r : Fin 2048) (cc : Fin 2048),
    (outsAt0 V c n h : Vec Ideal S2048x2048 .f32) (ix2 r cc) =
      if n % 250 = 249 then
        (tileSum 128 (at2 (arrX V c)) (at2 (arrW V c)) (n / 500 * 2048 + r.val) (n / 250 % 2 * 2048 + cc.val) 250
          + at2 (arrB V c) 0 (n / 250 % 2 * 2048 + cc.val))
      else tileSum 128 (at2 (arrX V c)) (at2 (arrW V c)) (n / 500 * 2048 + r.val) (n / 250 % 2 * 2048 + cc.val) (n % 250 + 1) := by
  induction n using Nat.strong_induction_on with
  | _ n ih =>
    intro h r cc
    have hN : n < 1000 := lt_of_lt_of_eq h N_0
    by_cases h0 : n % 250 = 0
    · have h1 : ¬n % 250 = 249 := by omega
      rw [outsAt0_A V c ⟨n, h⟩ h0 h1, out_A, pay2_apply, pay1_apply, zero_add, step_at, if_neg h1, h0, tileSum_succ, tileSum_zero, zero_add]
    · have hp : n - 1 < cfg0.N := Nat.lt_of_le_of_lt (Nat.sub_le _ _) h
      have e1 : (n - 1) / 500 = n / 500 := by omega
      have e2 : (n - 1) / 250 % 2 = n / 250 % 2 := by omega
      have e3 : (n - 1) % 250 + 1 = n % 250 := by omega
      have hprev := ih (n - 1) (by omega) hp r cc
      rw [if_neg (by omega), e1, e2, e3] at hprev
      by_cases h1 : n % 250 = 249
      · rw [outsAt0_C V c ⟨n, h⟩ h0 h1, out_C, pay3_apply, pay2_apply, step_at, blk2_at V c n h cc.val cc.isLt, if_pos h1]
        rw [h1] at hprev ⊢
        rw [show (250 : ℕ) = 249 + 1 from rfl, tileSum_succ]
        exact congrArg (fun z => (z + _ + _)) hprev
      · rw [outsAt0_B V c ⟨n, h⟩ h0 h1, out_B, pay2_apply, step_at, if_neg h1, tileSum_succ]
        exact congrArg (fun z => z + _) hprev

/-- An index of the output array is in point t's block iff each coordinate is in the block's range. -/
theorem mem_blk (t : Fin cfg0.N) (i : S4096x4096.Idx) :
    i ∈ ((cfg0.win 3).blk t).view.set ↔ ∀ a : Fin 2, win0_3.index t a * S2048x2048.size a ≤ (i a).val ∧ (i a).val < win0_3.index t a * S2048x2048.size a + S2048x2048.size a := by
  show i ∈ ((View.whole main_v6).slice (win0_3.rect t)).set ↔ _
  rw [View.set_slice_whole, Rect.mem_set_unit]
  exact Iff.rfl

/-- What a last K-step writes back is its block of the dense layer of the three input arrays. -/
theorem flushed_eq (t : Fin cfg0.N) (hf : (cfg0.win 3).flush t = true) :
    (dat0 V c).flushed 3 t = ((cfg0.win 3).blk t).view.read (Elt Ideal) (layer id (arrX V c) (arrW V c) (arrB V c)) := by
  have hlast : t.val % 250 = 249 := (flush0_3 t).mp hf
  have hN : t.val < 1000 := lt_of_lt_of_eq t.isLt N_0
  obtain ⟨-, -, -, -, -, -, e0, e1⟩ := idx_facts t
  show (cfg0.win 3).cut (grid0.coords t) ((dat0 V c).after 3 t) = _
  rw [after0_3]
  funext j
  obtain ⟨r, cc, rfl⟩ : ∃ (r : Fin 2048) (cc : Fin 2048), j = ix2 r cc := ⟨j 0, j 1, eq_ix2 j⟩
  show (outsAt0 V c t.val t.isLt : Vec Ideal S2048x2048 .f32) (ix2 r cc) = layer id (arrX V c) (arrW V c) (arrB V c) (((cfg0.win 3).blk t).view.emb (ix2 r cc))
  rw [outsAt_eq V c t.val t.isLt r cc, if_pos hlast]
  have c0 : ((((cfg0.win 3).blk t).view.emb (ix2 r cc)) 0).val = t.val / 500 * 2048 + r.val := by
    show win0_3.index t (0 : Fin 2) * 2048 + 1 * r.val = _; rw [e0]; omega
  have c1 : ((((cfg0.win 3).blk t).view.emb (ix2 r cc)) 1).val = t.val / 250 % 2 * 2048 + cc.val := by
    show win0_3.index t (1 : Fin 2) * 2048 + 1 * cc.val = _; rw [e1]; omega
  unfold layer dense
  rw [c0, c1, tileSum_eq]
  rfl

/-- The written-back blocks cover the output array. -/
theorem cover (i : S4096x4096.Idx) : ∃ t : Fin cfg0.N, (cfg0.win 3).flush t = true ∧ i ∈ ((cfg0.win 3).blk t).view.set := by
  have h0 : (i 0).val < 4096 := (i 0).isLt
  have h1 : (i 1).val < 4096 := (i 1).isLt
  have hlt : ((i 0).val / 2048 * 2 + (i 1).val / 2048) * 250 + 249 < cfg0.N := by rw [show cfg0.N = 1000 from N_0]; omega
  obtain ⟨-, -, -, -, -, -, e0, e1⟩ := idx_facts ⟨_, hlt⟩
  dsimp only at e0 e1
  refine ⟨⟨_, hlt⟩, (flush0_3 _).mpr (by dsimp only; omega), ?_⟩
  rw [mem_blk]
  intro a
  match a with
  | ⟨0, _⟩ =>
    show win0_3.index ⟨_, hlt⟩ (0 : Fin 2) * 2048 ≤ (i 0).val ∧ (i 0).val < win0_3.index ⟨_, hlt⟩ (0 : Fin 2) * 2048 + 2048
    rw [e0]; omega
  | ⟨1, _⟩ =>
    show win0_3.index ⟨_, hlt⟩ (1 : Fin 2) * 2048 ≤ (i 1).val ∧ (i 1).val < win0_3.index ⟨_, hlt⟩ (1 : Fin 2) * 2048 + 2048
    rw [e1]; omega

/-- The output array after the region: the dense layer of the arrays the region found. -/
theorem final : (dat0 V c).arrAt 3 cfg0.N = layer id (arrX V c) (arrW V c) (arrB V c) :=
  (dat0 V c).arrAt_eq_of_cover 3 _ (fun t hf => flushed_eq V c t hf) (cover)

end Cert.KernelIdeal.Layer0

end
-- ==== Proof.Layer1Pieces.lean ====
/-
  Region 1 (the second dense layer, with the rectifier): the values the kernel body stores, read at an index at the
  ideal instance. A K-block step adds to the accumulator block, at (r, c), the 128 products of row r of the input
  block with column c of the weight block; the reset stores zero; the last step adds the bias row and takes the maximum with zero.
-/
import proofs.«153553_j64785286692881_1_alg».proof.Proof.Gen.KernelIdeal.Frame
import proofs.«153553_j64785286692881_1_alg».proof.Proof.LibRangeSums
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Layer1

open Cert.KernelIdeal Cert.KernelIdeal.Gen Idealize.ShloMosaic Idealize.ShloMosaic.ValueIdx RangeSums

theorem dot_lhs_row (i : S2048x2048.Idx) (q : dot_S2048x128_S128x2048_S2048x2048_1_0_0_1_n_n.contr.Idx) :
    (dot_S2048x128_S128x2048_S2048x2048_1_0_0_1_n_n.lhsIdx i q 0).val = (i 0).val := by
  unfold DotDims.lhsIdx
  rw [dif_neg (show ¬(0 : Fin S2048x128.rank) ∈ dot_S2048x128_S128x2048_S2048x2048_1_0_0_1_n_n.lhsBatch by decide), dif_pos (show (0 : Fin S2048x128.rank) ∈ dot_S2048x128_S128x2048_S2048x2048_1_0_0_1_n_n.lhsNonContracting by decide)]
  rfl
theorem dot_rhs_col (i : S2048x2048.Idx) (q : dot_S2048x128_S128x2048_S2048x2048_1_0_0_1_n_n.contr.Idx) :
    (dot_S2048x128_S128x2048_S2048x2048_1_0_0_1_n_n.rhsIdx i q 1).val = (i 1).val := by
  unfold DotDims.rhsIdx
  rw [dif_neg (show ¬(1 : Fin S128x2048.rank) ∈ dot_S2048x128_S128x2048_S2048x2048_1_0_0_1_n_n.rhsBatch by decide), dif_pos (show (1 : Fin S128x2048.rank) ∈ dot_S2048x128_S128x2048_S2048x2048_1_0_0_1_n_n.rhsNonContracting by decide)]
  rfl

/-- The block product at (r, c): the sum over the 128 contracted positions. -/
theorem matmul_tile (x : FVec Ideal S2048x128 .bf16) (w : FVec Ideal S128x2048 .bf16) (r : Fin 2048) (c : Fin 2048) :
    matmul dot_S2048x128_S128x2048_S2048x2048_1_0_0_1_n_n none x w (constant (F := Ideal) S2048x2048 .f32 0x00000000#32) (ix2 r c)
      = ∑ k : Fin 128, x (ix2 r k) * w (ix2 k c) := by
  simp only [matmul]
  rw [Ideal.matmul_constant_zero_apply, ← Equiv.sum_comp (ValueIdx.contrEquiv1 dot_S2048x128_S128x2048_S2048x2048_1_0_0_1_n_n 128 rfl rfl).symm]
  refine Finset.sum_congr rfl fun k _ => ?_
  have hk := ValueIdx.contrEquiv1_symm_val dot_S2048x128_S128x2048_S2048x2048_1_0_0_1_n_n 128 rfl rfl k
  have el : dot_S2048x128_S128x2048_S2048x2048_1_0_0_1_n_n.lhsIdx (ix2 r c) ((ValueIdx.contrEquiv1 dot_S2048x128_S128x2048_S2048x2048_1_0_0_1_n_n 128 rfl rfl).symm k) = ix2 r k := funext fun a => Fin.ext (by
    match a with
    | ⟨0, _⟩ => exact dot_lhs_row _ _
    | ⟨1, _⟩ => exact (dot_S2048x128_S128x2048_S2048x2048_1_0_0_1_n_n.lhsIdx_val_of_single rfl _ _).trans hk)
  have er : dot_S2048x128_S128x2048_S2048x2048_1_0_0_1_n_n.rhsIdx (ix2 r c) ((ValueIdx.contrEquiv1 dot_S2048x128_S128x2048_S2048x2048_1_0_0_1_n_n 128 rfl rfl).symm k) = ix2 k c := funext fun a => Fin.ext (by
    match a with
    | ⟨0, _⟩ => exact (dot_S2048x128_S128x2048_S2048x2048_1_0_0_1_n_n.rhsIdx_val_of_single rfl _ _).trans hk
    | ⟨1, _⟩ => exact dot_rhs_col _ _)
  rw [el, er]

/-- The reset's value: zero everywhere. -/
theorem pay1_apply (r : Fin 2048) (c : Fin 2048) : k1_pay1 (F := Ideal) (ix2 r c) = 0 := by
  show Ideal.ofBits .f32 0x00000000#32 = 0
  exact Ideal.ofBits_zero_f32

/-- A K-block step at (r, c): the accumulator plus the 128 products of the two blocks. -/
theorem pay2_apply (v3 : Vec Ideal S2048x128 .f32) (v5 : Vec Ideal S128x2048 .f32) (v8 : Vec Ideal S2048x2048 .f32) (r : Fin 2048) (c : Fin 2048) :
    k1_pay2 v3 v5 v8 (ix2 r c) = v8 (ix2 r c) + ∑ k ∈ Finset.range 128, at2 (α := EReal) v3 r.val k * at2 (α := EReal) v5 k c.val := by
  unfold k1_pay2
  rw [addf_apply, shapeCast_self, shapeCast_self, shapeCast_self, matmul_tile]
  refine congrArg (v8 (ix2 r c) + ·) ?_
  rw [← sum_fin_eq_range (fun k => at2 (α := EReal) v3 r.val k * at2 (α := EReal) v5 k c.val) 128]
  refine Finset.sum_congr rfl fun k _ => ?_
  rw [at2_ix, at2_ix]
  rfl

/-- The last step at (r, c): the accumulated sum plus the bias row's entry c, then the maximum with zero. -/
theorem pay3_apply (v16 : Vec Ideal S2048x2048 .f32) (v18 : Vec Ideal S1x2048 .f32) (r : Fin 2048) (c : Fin 2048) :
    k1_pay3 v16 v18 (ix2 r c) = max (v16 (ix2 r c) + at2 (α := EReal) v18 0 c.val) 0 := by
  unfold k1_pay3
  rw [maximumf_apply, addf_apply, shapeCast_self, shapeCast_self, broadcastTo_1b_ab_apply, broadcast_apply]
  show max _ (Ideal.ofBits .f32 0x00000000#32) = _
  rw [Ideal.ofBits_zero_f32]
  exact congrArg (fun z => max (v16 (ix2 r c) + z) 0) (at2_ix (α := EReal) v18 (0 : Fin 1) c).symm

end Cert.KernelIdeal.Layer1

end
-- ==== Proof.Layer1Cases.lean ====
/-
  Region 1: what each control case of the body leaves in the output's block, as a value. At the first K-step
  the block is reset and one step is accumulated into zero; at a middle step one step is accumulated into what the
  step before left; at the last step the bias row is added to the accumulated block and the maximum with zero taken.
-/
import proofs.«153553_j64785286692881_1_alg».proof.Proof.Gen.KernelIdeal.Frame
import Idealize.ShloMosaic.Lib.Pipeline.Value
import Idealize.ShloMosaic.Lib.Tactic

noncomputable section

namespace Cert.KernelIdeal.Layer1

open Cert.KernelIdeal Cert.KernelIdeal.Gen Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- A middle step: one K-step accumulated into the block's running contents. -/
theorem out_B (c : Dev nD) (i : grid1.Coords) (a3 : Memref sig .tc .vmem S2048x128 .f32) (h3 : a3.IsWhole) (a4 : Memref sig .tc .vmem S128x2048 .f32) (h4 : a4.IsWhole) (a5 : Memref sig .tc .vmem S1x2048 .f32) (h5 : a5.IsWhole) (a6 : Memref sig .tc .vmem S2048x2048 .f32) (h6 : a6.IsWhole) (hc0 : ¬cond1_0 i) (hc1 : ¬cond1_1 i)
    (x0 : Vec F S2048x128 .f32) (x1 : Vec F S128x2048 .f32) (x2 : Vec F S1x2048 .f32) (xo : Vec F S2048x2048 .f32) :
    out1_B_3 c i a3 h3 a4 h4 a5 h5 a6 h6 hc0 hc1 x0 x1 x2 xo = k1_pay2 x0 x1 xo := by
  unfold out1_B_3
  rw [View.read_writes_eq_canon _ _ _ (cover1_B_3 c i a3 h3 a4 h4 a5 h5 a6 h6 hc0 hc1 x0 x1 x2 xo)]
  unfold kernelRun1_B
  dsimp only
  rw [View.canon_unit_zero hz]
  simp only [View.readAt_eq_ld, h3.read_unread, h4.read_unread, h6.read_unread, View.ld_unit_zero (S := S2048x128) hz,
    View.ld_unit_zero (S := S128x2048) hz, View.ld_unit_zero (S := S2048x2048) hz]

/-- The first step: one K-step accumulated into the zero block the reset stored. -/
theorem out_A (c : Dev nD) (i : grid1.Coords) (a3 : Memref sig .tc .vmem S2048x128 .f32) (h3 : a3.IsWhole) (a4 : Memref sig .tc .vmem S128x2048 .f32) (h4 : a4.IsWhole) (a5 : Memref sig .tc .vmem S1x2048 .f32) (h5 : a5.IsWhole) (a6 : Memref sig .tc .vmem S2048x2048 .f32) (h6 : a6.IsWhole) (hc0 : cond1_0 i) (hc1 : ¬cond1_1 i)
    (x0 : Vec F S2048x128 .f32) (x1 : Vec F S128x2048 .f32) (x2 : Vec F S1x2048 .f32) :
    out1_A_3 c i a3 h3 a4 h4 a5 h5 a6 h6 hc0 hc1 x0 x1 x2 = k1_pay2 x0 x1 (k1_pay1 (F := F)) := by
  unfold out1_A_3
  rw [View.read_writes_eq_canon _ _ _ (cover1_A_3 c i a3 h3 a4 h4 a5 h5 a6 h6 hc0 hc1 x0 x1 x2)]
  unfold kernelRun1_A
  dsimp only
  sl_unfold_words
  rw [View.canon_cons_unit_zero (S := S2048x2048) hz, View.readCov_unit_zero (S := S2048x2048) _ hz]
  simp only [View.readAt_eq_ld, h3.read_unread, h4.read_unread, View.ld_unit_zero (S := S2048x128) hz,
    View.ld_unit_zero (S := S128x2048) hz, View.ld_unit_zero (S := S2048x2048) hz]

/-- The last step: one K-step accumulated, then the bias row added and the maximum with zero taken. -/
theorem out_C (c : Dev nD) (i : grid1.Coords) (a3 : Memref sig .tc .vmem S2048x128 .f32) (h3 : a3.IsWhole) (a4 : Memref sig .tc .vmem S128x2048 .f32) (h4 : a4.IsWhole) (a5 : Memref sig .tc .vmem S1x2048 .f32) (h5 : a5.IsWhole) (a6 : Memref sig .tc .vmem S2048x2048 .f32) (h6 : a6.IsWhole) (hc0 : ¬cond1_0 i) (hc1 : cond1_1 i)
    (x0 : Vec F S2048x128 .f32) (x1 : Vec F S128x2048 .f32) (x2 : Vec F S1x2048 .f32) (xo : Vec F S2048x2048 .f32) :
    out1_C_3 c i a3 h3 a4 h4 a5 h5 a6 h6 hc0 hc1 x0 x1 x2 xo = k1_pay3 (k1_pay2 x0 x1 xo) x2 := by
  unfold out1_C_3
  rw [View.read_writes_eq_canon _ _ _ (cover1_C_3 c i a3 h3 a4 h4 a5 h5 a6 h6 hc0 hc1 x0 x1 x2 xo)]
  unfold kernelRun1_C
  dsimp only
  sl_unfold_words
  rw [View.canon_cons_unit_zero (S := S2048x2048) hz, View.readCov_unit_zero (S := S2048x2048) _ hz]
  simp only [View.readAt_eq_ld, h3.read_unread, h4.read_unread, h5.read_unread, h6.read_unread, View.ld_unit_zero (S := S2048x128) hz,
    View.ld_unit_zero (S := S128x2048) hz, View.ld_unit_zero (S := S1x2048) hz, View.ld_unit_zero (S := S2048x2048) hz]

end Cert.KernelIdeal.Layer1

end
-- ==== Proof.Layer1Run.lean ====
/-
  Region 1 (the second dense layer, with the rectifier): the output array after the region is the dense layer of the region's three
  input arrays. Point n of the grid is row block n / 64, column block n / 32 % 2, K-step n % 32.
  After point n the output block holds the contraction's first (n % 32) + 1 tiles of 128 positions, and at the
  last K-step the bias row added and the maximum with zero taken; the block is written back at the last K-step, and those blocks cover the array.
-/
import proofs.«153553_j64785286692881_1_alg».proof.Proof.Layer1Pieces
import proofs.«153553_j64785286692881_1_alg».proof.Proof.Layer1Cases
import proofs.«153553_j64785286692881_1_alg».proof.Proof.LibDenseTiles

set_option maxRecDepth 16384

noncomputable section

namespace Cert.KernelIdeal.Layer1

open Cert.KernelIdeal Cert.KernelIdeal.Gen Idealize.ShloMosaic Idealize.ShloMosaic.TcCoe Idealize.ShloMosaic.ValueIdx Idealize.SL.Sem
open Idealize.ShloMosaic.Pipeline (Dat)
open RangeSums DenseTiles

variable (V : (c : Dev nD) → (b : Ref sig .tc) → Buf (Elt Ideal) ((c : Thread nD τ).loc b)) (c : Dev nD)

/-- The region's input arrays as it finds them: the input, the weights, the bias row. -/
abbrev arrX : S4096x4096.Idx → EReal := V c main_v6
abbrev arrW : S4096x4096.Idx → EReal := V c main_v2
abbrev arrB : S1x4096.Idx → EReal := V c main_v7

/-- The printed index maps over the grid. -/
theorem idx_facts : ∀ t : Fin cfg1.N,
    win1_0.index t (0 : Fin 2) = t.val / 64 ∧ win1_0.index t (1 : Fin 2) = t.val % 32
    ∧ win1_1.index t (0 : Fin 2) = t.val % 32 ∧ win1_1.index t (1 : Fin 2) = t.val / 32 % 2
    ∧ win1_2.index t (0 : Fin 2) = 0 ∧ win1_2.index t (1 : Fin 2) = t.val / 32 % 2
    ∧ win1_3.index t (0 : Fin 2) = t.val / 64 ∧ win1_3.index t (1 : Fin 2) = t.val / 32 % 2 :=
  (by decide +kernel : ∀ t : Fin grid1.N, _)

/-- The input block at point n: rows (n / 64)·2048 + r, positions (n % 32)·128 + k of the input. -/
theorem blk0_at (n : ℕ) (h : n < cfg1.N) (r k : ℕ) (hr : r < 2048) (hk : k < 128) :
    at2 (α := EReal) (iblk1 V c 0 ⟨n, h⟩ : Vec Ideal S2048x128 .f32) r k = at2 (arrX V c) (n / 64 * 2048 + r) (n % 32 * 128 + k) := by
  have hN : n < 128 := lt_of_lt_of_eq h N_1
  obtain ⟨e0, e1, -⟩ := idx_facts ⟨n, h⟩
  dsimp only at e0 e1
  rw [at2_of_lt _ hr hk, at2_of_lt _ (show n / 64 * 2048 + r < 4096 by omega) (show n % 32 * 128 + k < 4096 by omega)]
  unfold iblk1
  rw [View.read_apply]
  show V c main_v6 _ = V c main_v6 _
  refine congrArg (V c main_v6) (funext fun a => Fin.ext ?_)
  match a with
  | ⟨0, _⟩ => show win1_0.index ⟨n, h⟩ (0 : Fin 2) * 2048 + 1 * r = n / 64 * 2048 + r; rw [e0]; omega
  | ⟨1, _⟩ => show win1_0.index ⟨n, h⟩ (1 : Fin 2) * 128 + 1 * k = n % 32 * 128 + k; rw [e1]; omega

/-- The weight block at point n: positions (n % 32)·128 + k, columns (n / 32 % 2)·2048 + j of the weights. -/
theorem blk1_at (n : ℕ) (h : n < cfg1.N) (k j : ℕ) (hk : k < 128) (hj : j < 2048) :
    at2 (α := EReal) (iblk1 V c 1 ⟨n, h⟩ : Vec Ideal S128x2048 .f32) k j = at2 (arrW V c) (n % 32 * 128 + k) (n / 32 % 2 * 2048 + j) := by
  have hN : n < 128 := lt_of_lt_of_eq h N_1
  obtain ⟨-, -, e0, e1, -⟩ := idx_facts ⟨n, h⟩
  dsimp only at e0 e1
  rw [at2_of_lt _ hk hj, at2_of_lt _ (show n % 32 * 128 + k < 4096 by omega) (show n / 32 % 2 * 2048 + j < 4096 by omega)]
  unfold iblk1
  rw [View.read_apply]
  show V c main_v2 _ = V c main_v2 _
  refine congrArg (V c main_v2) (funext fun a => Fin.ext ?_)
  match a with
  | ⟨0, _⟩ => show win1_1.index ⟨n, h⟩ (0 : Fin 2) * 128 + 1 * k = n % 32 * 128 + k; rw [e0]; omega
  | ⟨1, _⟩ => show win1_1.index ⟨n, h⟩ (1 : Fin 2) * 2048 + 1 * j = n / 32 % 2 * 2048 + j; rw [e1]; omega

/-- The bias block at point n: columns (n / 32 % 2)·2048 + j of the bias row. -/
theorem blk2_at (n : ℕ) (h : n < cfg1.N) (j : ℕ) (hj : j < 2048) :
    at2 (α := EReal) (iblk1 V c 2 ⟨n, h⟩ : Vec Ideal S1x2048 .f32) 0 j = at2 (arrB V c) 0 (n / 32 % 2 * 2048 + j) := by
  have hN : n < 128 := lt_of_lt_of_eq h N_1
  obtain ⟨-, -, -, -, e0, e1, -⟩ := idx_facts ⟨n, h⟩
  dsimp only at e0 e1
  rw [at2_of_lt _ (show 0 < 1 by omega) hj, at2_of_lt _ (show 0 < 1 by omega) (show n / 32 % 2 * 2048 + j < 4096 by omega)]
  unfold iblk1
  rw [View.read_apply]
  show V c main_v7 _ = V c main_v7 _
  refine congrArg (V c main_v7) (funext fun a => Fin.ext ?_)
  match a with
  | ⟨0, _⟩ => show win1_2.index ⟨n, h⟩ (0 : Fin 2) * 1 + 1 * 0 = 0; rw [e0]
  | ⟨1, _⟩ => show win1_2.index ⟨n, h⟩ (1 : Fin 2) * 2048 + 1 * j = n / 32 % 2 * 2048 + j; rw [e1]; omega

/-- One K-step's 128 products, read off the two blocks, are tile (n % 32) of the contraction. -/
theorem step_at (n : ℕ) (h : n < cfg1.N) (r : Fin 2048) (cc : Fin 2048) :
    ∑ k ∈ Finset.range 128, at2 (α := EReal) (iblk1 V c 0 ⟨n, h⟩ : Vec Ideal S2048x128 .f32) r.val k * at2 (α := EReal) (iblk1 V c 1 ⟨n, h⟩ : Vec Ideal S128x2048 .f32) k cc.val
      = ∑ k ∈ Finset.range 128, at2 (arrX V c) (n / 64 * 2048 + r.val) (n % 32 * 128 + k) * at2 (arrW V c) (n % 32 * 128 + k) (n / 32 % 2 * 2048 + cc.val) :=
  Finset.sum_congr rfl fun k hk => by
    rw [blk0_at V c n h r.val k r.isLt (Finset.mem_range.mp hk), blk1_at V c n h k cc.val (Finset.mem_range.mp hk) cc.isLt]

/-- After point n the output block holds, at (r, cc), the first (n % 32) + 1 tiles of the contraction of input
    row (n / 64)·2048 + r with weight column (n / 32 % 2)·2048 + cc; at the last K-step, the bias added and the maximum with zero taken. -/
theorem outsAt_eq (n : ℕ) : ∀ (h : n < cfg1.N) (r : Fin 2048) (cc : Fin 2048),
    (outsAt1 V c n h : Vec Ideal S2048x2048 .f32) (ix2 r cc) =
      if n % 32 = 31 then
        max (tileSum 128 (at2 (arrX V c)) (at2 (arrW V c)) (n / 64 * 2048 + r.val) (n / 32 % 2 * 2048 + cc.val) 32
          + at2 (arrB V c) 0 (n / 32 % 2 * 2048 + cc.val)) 0
      else tileSum 128 (at2 (arrX V c)) (at2 (arrW V c)) (n / 64 * 2048 + r.val) (n / 32 % 2 * 2048 + cc.val) (n % 32 + 1) := by
  induction n using Nat.strong_induction_on with
  | _ n ih =>
    intro h r cc
    have hN : n < 128 := lt_of_lt_of_eq h N_1
    by_cases h0 : n % 32 = 0
    · have h1 : ¬n % 32 = 31 := by omega
      rw [outsAt1_A V c ⟨n, h⟩ h0 h1, out_A, pay2_apply, pay1_apply, zero_add, step_at, if_neg h1, h0, tileSum_succ, tileSum_zero, zero_add]
    · have hp : n - 1 < cfg1.N := Nat.lt_of_le_of_lt (Nat.sub_le _ _) h
      have e1 : (n - 1) / 64 = n / 64 := by omega
      have e2 : (n - 1) / 32 % 2 = n / 32 % 2 := by omega
      have e3 : (n - 1) % 32 + 1 = n % 32 := by omega
      have hprev := ih (n - 1) (by omega) hp r cc
      rw [if_neg (by omega), e1, e2, e3] at hprev
      by_cases h1 : n % 32 = 31
      · rw [outsAt1_C V c ⟨n, h⟩ h0 h1, out_C, pay3_apply, pay2_apply, step_at, blk2_at V c n h cc.val cc.isLt, if_pos h1]
        rw [h1] at hprev ⊢
        rw [show (32 : ℕ) = 31 + 1 from rfl, tileSum_succ]
        exact congrArg (fun z => max (z + _ + _) 0) hprev
      · rw [outsAt1_B V c ⟨n, h⟩ h0 h1, out_B, pay2_apply, step_at, if_neg h1, tileSum_succ]
        exact congrArg (fun z => z + _) hprev

/-- An index of the output array is in point t's block iff each coordinate is in the block's range. -/
theorem mem_blk (t : Fin cfg1.N) (i : S4096x4096.Idx) :
    i ∈ ((cfg1.win 3).blk t).view.set ↔ ∀ a : Fin 2, win1_3.index t a * S2048x2048.size a ≤ (i a).val ∧ (i a).val < win1_3.index t a * S2048x2048.size a + S2048x2048.size a := by
  show i ∈ ((View.whole main_v8).slice (win1_3.rect t)).set ↔ _
  rw [View.set_slice_whole, Rect.mem_set_unit]
  exact Iff.rfl

/-- What a last K-step writes back is its block of the dense layer of the three input arrays. -/
theorem flushed_eq (t : Fin cfg1.N) (hf : (cfg1.win 3).flush t = true) :
    (dat1 V c).flushed 3 t = ((cfg1.win 3).blk t).view.read (Elt Ideal) (layer (fun z => max z 0) (arrX V c) (arrW V c) (arrB V c)) := by
  have hlast : t.val % 32 = 31 := (flush1_3 t).mp hf
  have hN : t.val < 128 := lt_of_lt_of_eq t.isLt N_1
  obtain ⟨-, -, -, -, -, -, e0, e1⟩ := idx_facts t
  show (cfg1.win 3).cut (grid1.coords t) ((dat1 V c).after 3 t) = _
  rw [after1_3]
  funext j
  obtain ⟨r, cc, rfl⟩ : ∃ (r : Fin 2048) (cc : Fin 2048), j = ix2 r cc := ⟨j 0, j 1, eq_ix2 j⟩
  show (outsAt1 V c t.val t.isLt : Vec Ideal S2048x2048 .f32) (ix2 r cc) = layer (fun z => max z 0) (arrX V c) (arrW V c) (arrB V c) (((cfg1.win 3).blk t).view.emb (ix2 r cc))
  rw [outsAt_eq V c t.val t.isLt r cc, if_pos hlast]
  have c0 : ((((cfg1.win 3).blk t).view.emb (ix2 r cc)) 0).val = t.val / 64 * 2048 + r.val := by
    show win1_3.index t (0 : Fin 2) * 2048 + 1 * r.val = _; rw [e0]; omega
  have c1 : ((((cfg1.win 3).blk t).view.emb (ix2 r cc)) 1).val = t.val / 32 % 2 * 2048 + cc.val := by
    show win1_3.index t (1 : Fin 2) * 2048 + 1 * cc.val = _; rw [e1]; omega
  unfold layer dense
  rw [c0, c1, tileSum_eq]

/-- The written-back blocks cover the output array. -/
theorem cover (i : S4096x4096.Idx) : ∃ t : Fin cfg1.N, (cfg1.win 3).flush t = true ∧ i ∈ ((cfg1.win 3).blk t).view.set := by
  have h0 : (i 0).val < 4096 := (i 0).isLt
  have h1 : (i 1).val < 4096 := (i 1).isLt
  have hlt : ((i 0).val / 2048 * 2 + (i 1).val / 2048) * 32 + 31 < cfg1.N := by rw [show cfg1.N = 128 from N_1]; omega
  obtain ⟨-, -, -, -, -, -, e0, e1⟩ := idx_facts ⟨_, hlt⟩
  dsimp only at e0 e1
  refine ⟨⟨_, hlt⟩, (flush1_3 _).mpr (by dsimp only; omega), ?_⟩
  rw [mem_blk]
  intro a
  match a with
  | ⟨0, _⟩ =>
    show win1_3.index ⟨_, hlt⟩ (0 : Fin 2) * 2048 ≤ (i 0).val ∧ (i 0).val < win1_3.index ⟨_, hlt⟩ (0 : Fin 2) * 2048 + 2048
    rw [e0]; omega
  | ⟨1, _⟩ =>
    show win1_3.index ⟨_, hlt⟩ (1 : Fin 2) * 2048 ≤ (i 1).val ∧ (i 1).val < win1_3.index ⟨_, hlt⟩ (1 : Fin 2) * 2048 + 2048
    rw [e1]; omega

/-- The output array after the region: the dense layer of the arrays the region found. -/
theorem final : (dat1 V c).arrAt 3 cfg1.N = layer (fun z => max z 0) (arrX V c) (arrW V c) (arrB V c) :=
  (dat1 V c).arrAt_eq_of_cover 3 _ (fun t hf => flushed_eq V c t hf) (cover)

end Cert.KernelIdeal.Layer1

end
-- ==== Proof.Layer2Pieces.lean ====
/-
  Region 2 (the third dense layer, with the rectifier): the values the kernel body stores, read at an index at the
  ideal instance. A K-block step adds to the accumulator block, at (r, c), the 128 products of row r of the input
  block with column c of the weight block; the reset stores zero; the last step adds the bias row and takes the maximum with zero.
-/
import proofs.«153553_j64785286692881_1_alg».proof.Proof.Gen.KernelIdeal.Frame
import proofs.«153553_j64785286692881_1_alg».proof.Proof.LibRangeSums
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Layer2

open Cert.KernelIdeal Cert.KernelIdeal.Gen Idealize.ShloMosaic Idealize.ShloMosaic.ValueIdx RangeSums

theorem dot_lhs_row (i : S2048x2000.Idx) (q : dot_S2048x128_S128x2000_S2048x2000_1_0_0_1_n_n.contr.Idx) :
    (dot_S2048x128_S128x2000_S2048x2000_1_0_0_1_n_n.lhsIdx i q 0).val = (i 0).val := by
  unfold DotDims.lhsIdx
  rw [dif_neg (show ¬(0 : Fin S2048x128.rank) ∈ dot_S2048x128_S128x2000_S2048x2000_1_0_0_1_n_n.lhsBatch by decide), dif_pos (show (0 : Fin S2048x128.rank) ∈ dot_S2048x128_S128x2000_S2048x2000_1_0_0_1_n_n.lhsNonContracting by decide)]
  rfl
theorem dot_rhs_col (i : S2048x2000.Idx) (q : dot_S2048x128_S128x2000_S2048x2000_1_0_0_1_n_n.contr.Idx) :
    (dot_S2048x128_S128x2000_S2048x2000_1_0_0_1_n_n.rhsIdx i q 1).val = (i 1).val := by
  unfold DotDims.rhsIdx
  rw [dif_neg (show ¬(1 : Fin S128x2000.rank) ∈ dot_S2048x128_S128x2000_S2048x2000_1_0_0_1_n_n.rhsBatch by decide), dif_pos (show (1 : Fin S128x2000.rank) ∈ dot_S2048x128_S128x2000_S2048x2000_1_0_0_1_n_n.rhsNonContracting by decide)]
  rfl

/-- The block product at (r, c): the sum over the 128 contracted positions. -/
theorem matmul_tile (x : FVec Ideal S2048x128 .bf16) (w : FVec Ideal S128x2000 .bf16) (r : Fin 2048) (c : Fin 2000) :
    matmul dot_S2048x128_S128x2000_S2048x2000_1_0_0_1_n_n none x w (constant (F := Ideal) S2048x2000 .f32 0x00000000#32) (ix2 r c)
      = ∑ k : Fin 128, x (ix2 r k) * w (ix2 k c) := by
  simp only [matmul]
  rw [Ideal.matmul_constant_zero_apply, ← Equiv.sum_comp (ValueIdx.contrEquiv1 dot_S2048x128_S128x2000_S2048x2000_1_0_0_1_n_n 128 rfl rfl).symm]
  refine Finset.sum_congr rfl fun k _ => ?_
  have hk := ValueIdx.contrEquiv1_symm_val dot_S2048x128_S128x2000_S2048x2000_1_0_0_1_n_n 128 rfl rfl k
  have el : dot_S2048x128_S128x2000_S2048x2000_1_0_0_1_n_n.lhsIdx (ix2 r c) ((ValueIdx.contrEquiv1 dot_S2048x128_S128x2000_S2048x2000_1_0_0_1_n_n 128 rfl rfl).symm k) = ix2 r k := funext fun a => Fin.ext (by
    match a with
    | ⟨0, _⟩ => exact dot_lhs_row _ _
    | ⟨1, _⟩ => exact (dot_S2048x128_S128x2000_S2048x2000_1_0_0_1_n_n.lhsIdx_val_of_single rfl _ _).trans hk)
  have er : dot_S2048x128_S128x2000_S2048x2000_1_0_0_1_n_n.rhsIdx (ix2 r c) ((ValueIdx.contrEquiv1 dot_S2048x128_S128x2000_S2048x2000_1_0_0_1_n_n 128 rfl rfl).symm k) = ix2 k c := funext fun a => Fin.ext (by
    match a with
    | ⟨0, _⟩ => exact (dot_S2048x128_S128x2000_S2048x2000_1_0_0_1_n_n.rhsIdx_val_of_single rfl _ _).trans hk
    | ⟨1, _⟩ => exact dot_rhs_col _ _)
  rw [el, er]

/-- The reset's value: zero everywhere. -/
theorem pay1_apply (r : Fin 2048) (c : Fin 2000) : k2_pay1 (F := Ideal) (ix2 r c) = 0 := by
  show Ideal.ofBits .f32 0x00000000#32 = 0
  exact Ideal.ofBits_zero_f32

/-- A K-block step at (r, c): the accumulator plus the 128 products of the two blocks. -/
theorem pay2_apply (v3 : Vec Ideal S2048x128 .f32) (v5 : Vec Ideal S128x2000 .f32) (v8 : Vec Ideal S2048x2000 .f32) (r : Fin 2048) (c : Fin 2000) :
    k2_pay2 v3 v5 v8 (ix2 r c) = v8 (ix2 r c) + ∑ k ∈ Finset.range 128, at2 (α := EReal) v3 r.val k * at2 (α := EReal) v5 k c.val := by
  unfold k2_pay2
  rw [addf_apply, shapeCast_self, shapeCast_self, shapeCast_self, matmul_tile]
  refine congrArg (v8 (ix2 r c) + ·) ?_
  rw [← sum_fin_eq_range (fun k => at2 (α := EReal) v3 r.val k * at2 (α := EReal) v5 k c.val) 128]
  refine Finset.sum_congr rfl fun k _ => ?_
  rw [at2_ix, at2_ix]
  rfl

/-- The last step at (r, c): the accumulated sum plus the bias row's entry c, then the maximum with zero. -/
theorem pay3_apply (v16 : Vec Ideal S2048x2000 .f32) (v18 : Vec Ideal S1x2000 .f32) (r : Fin 2048) (c : Fin 2000) :
    k2_pay3 v16 v18 (ix2 r c) = max (v16 (ix2 r c) + at2 (α := EReal) v18 0 c.val) 0 := by
  unfold k2_pay3
  rw [maximumf_apply, addf_apply, shapeCast_self, shapeCast_self, broadcastTo_1b_ab_apply, broadcast_apply]
  show max _ (Ideal.ofBits .f32 0x00000000#32) = _
  rw [Ideal.ofBits_zero_f32]
  exact congrArg (fun z => max (v16 (ix2 r c) + z) 0) (at2_ix (α := EReal) v18 (0 : Fin 1) c).symm

end Cert.KernelIdeal.Layer2

end
-- ==== Proof.Layer2Cases.lean ====
/-
  Region 2: what each control case of the body leaves in the output's block, as a value. At the first K-step
  the block is reset and one step is accumulated into zero; at a middle step one step is accumulated into what the
  step before left; at the last step the bias row is added to the accumulated block and the maximum with zero taken.
-/
import proofs.«153553_j64785286692881_1_alg».proof.Proof.Gen.KernelIdeal.Frame
import Idealize.ShloMosaic.Lib.Pipeline.Value
import Idealize.ShloMosaic.Lib.Tactic

noncomputable section

namespace Cert.KernelIdeal.Layer2

open Cert.KernelIdeal Cert.KernelIdeal.Gen Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- A middle step: one K-step accumulated into the block's running contents. -/
theorem out_B (c : Dev nD) (i : grid2.Coords) (a3 : Memref sig .tc .vmem S2048x128 .f32) (h3 : a3.IsWhole) (a4 : Memref sig .tc .vmem S128x2000 .f32) (h4 : a4.IsWhole) (a5 : Memref sig .tc .vmem S1x2000 .f32) (h5 : a5.IsWhole) (a6 : Memref sig .tc .vmem S2048x2000 .f32) (h6 : a6.IsWhole) (hc0 : ¬cond2_0 i) (hc1 : ¬cond2_1 i)
    (x0 : Vec F S2048x128 .f32) (x1 : Vec F S128x2000 .f32) (x2 : Vec F S1x2000 .f32) (xo : Vec F S2048x2000 .f32) :
    out2_B_3 c i a3 h3 a4 h4 a5 h5 a6 h6 hc0 hc1 x0 x1 x2 xo = k2_pay2 x0 x1 xo := by
  unfold out2_B_3
  rw [View.read_writes_eq_canon _ _ _ (cover2_B_3 c i a3 h3 a4 h4 a5 h5 a6 h6 hc0 hc1 x0 x1 x2 xo)]
  unfold kernelRun2_B
  dsimp only
  rw [View.canon_unit_zero hz]
  simp only [View.readAt_eq_ld, h3.read_unread, h4.read_unread, h6.read_unread, View.ld_unit_zero (S := S2048x128) hz,
    View.ld_unit_zero (S := S128x2000) hz, View.ld_unit_zero (S := S2048x2000) hz]

/-- The first step: one K-step accumulated into the zero block the reset stored. -/
theorem out_A (c : Dev nD) (i : grid2.Coords) (a3 : Memref sig .tc .vmem S2048x128 .f32) (h3 : a3.IsWhole) (a4 : Memref sig .tc .vmem S128x2000 .f32) (h4 : a4.IsWhole) (a5 : Memref sig .tc .vmem S1x2000 .f32) (h5 : a5.IsWhole) (a6 : Memref sig .tc .vmem S2048x2000 .f32) (h6 : a6.IsWhole) (hc0 : cond2_0 i) (hc1 : ¬cond2_1 i)
    (x0 : Vec F S2048x128 .f32) (x1 : Vec F S128x2000 .f32) (x2 : Vec F S1x2000 .f32) :
    out2_A_3 c i a3 h3 a4 h4 a5 h5 a6 h6 hc0 hc1 x0 x1 x2 = k2_pay2 x0 x1 (k2_pay1 (F := F)) := by
  unfold out2_A_3
  rw [View.read_writes_eq_canon _ _ _ (cover2_A_3 c i a3 h3 a4 h4 a5 h5 a6 h6 hc0 hc1 x0 x1 x2)]
  unfold kernelRun2_A
  dsimp only
  sl_unfold_words
  rw [View.canon_cons_unit_zero (S := S2048x2000) hz, View.readCov_unit_zero (S := S2048x2000) _ hz]
  simp only [View.readAt_eq_ld, h3.read_unread, h4.read_unread, View.ld_unit_zero (S := S2048x128) hz,
    View.ld_unit_zero (S := S128x2000) hz, View.ld_unit_zero (S := S2048x2000) hz]

/-- The last step: one K-step accumulated, then the bias row added and the maximum with zero taken. -/
theorem out_C (c : Dev nD) (i : grid2.Coords) (a3 : Memref sig .tc .vmem S2048x128 .f32) (h3 : a3.IsWhole) (a4 : Memref sig .tc .vmem S128x2000 .f32) (h4 : a4.IsWhole) (a5 : Memref sig .tc .vmem S1x2000 .f32) (h5 : a5.IsWhole) (a6 : Memref sig .tc .vmem S2048x2000 .f32) (h6 : a6.IsWhole) (hc0 : ¬cond2_0 i) (hc1 : cond2_1 i)
    (x0 : Vec F S2048x128 .f32) (x1 : Vec F S128x2000 .f32) (x2 : Vec F S1x2000 .f32) (xo : Vec F S2048x2000 .f32) :
    out2_C_3 c i a3 h3 a4 h4 a5 h5 a6 h6 hc0 hc1 x0 x1 x2 xo = k2_pay3 (k2_pay2 x0 x1 xo) x2 := by
  unfold out2_C_3
  rw [View.read_writes_eq_canon _ _ _ (cover2_C_3 c i a3 h3 a4 h4 a5 h5 a6 h6 hc0 hc1 x0 x1 x2 xo)]
  unfold kernelRun2_C
  dsimp only
  sl_unfold_words
  rw [View.canon_cons_unit_zero (S := S2048x2000) hz, View.readCov_unit_zero (S := S2048x2000) _ hz]
  simp only [View.readAt_eq_ld, h3.read_unread, h4.read_unread, h5.read_unread, h6.read_unread, View.ld_unit_zero (S := S2048x128) hz,
    View.ld_unit_zero (S := S128x2000) hz, View.ld_unit_zero (S := S1x2000) hz, View.ld_unit_zero (S := S2048x2000) hz]

end Cert.KernelIdeal.Layer2

end
-- ==== Proof.Layer2Run.lean ====
/-
  Region 2 (the third dense layer, with the rectifier): the output array after the region is the dense layer of the region's three
  input arrays. Point n of the grid is row block n / 32, column block n / 64, K-step n % 32.
  After point n the output block holds the contraction's first (n % 32) + 1 tiles of 128 positions, and at the
  last K-step the bias row added and the maximum with zero taken; the block is written back at the last K-step, and those blocks cover the array.
-/
import proofs.«153553_j64785286692881_1_alg».proof.Proof.Layer2Pieces
import proofs.«153553_j64785286692881_1_alg».proof.Proof.Layer2Cases
import proofs.«153553_j64785286692881_1_alg».proof.Proof.LibDenseTiles

set_option maxRecDepth 16384

noncomputable section

namespace Cert.KernelIdeal.Layer2

open Cert.KernelIdeal Cert.KernelIdeal.Gen Idealize.ShloMosaic Idealize.ShloMosaic.TcCoe Idealize.ShloMosaic.ValueIdx Idealize.SL.Sem
open Idealize.ShloMosaic.Pipeline (Dat)
open RangeSums DenseTiles

variable (V : (c : Dev nD) → (b : Ref sig .tc) → Buf (Elt Ideal) ((c : Thread nD τ).loc b)) (c : Dev nD)

/-- The region's input arrays as it finds them: the input, the weights, the bias row. -/
abbrev arrX : S4096x4096.Idx → EReal := V c main_v8
abbrev arrW : S4096x2000.Idx → EReal := V c main_v4
abbrev arrB : S1x2000.Idx → EReal := V c main_v9

/-- The printed index maps over the grid. -/
theorem idx_facts : ∀ t : Fin cfg2.N,
    win2_0.index t (0 : Fin 2) = t.val / 32 ∧ win2_0.index t (1 : Fin 2) = t.val % 32
    ∧ win2_1.index t (0 : Fin 2) = t.val % 32 ∧ win2_1.index t (1 : Fin 2) = t.val / 64
    ∧ win2_2.index t (0 : Fin 2) = 0 ∧ win2_2.index t (1 : Fin 2) = t.val / 64
    ∧ win2_3.index t (0 : Fin 2) = t.val / 32 ∧ win2_3.index t (1 : Fin 2) = t.val / 64 :=
  (by decide +kernel : ∀ t : Fin grid2.N, _)

/-- The input block at point n: rows (n / 32)·2048 + r, positions (n % 32)·128 + k of the input. -/
theorem blk0_at (n : ℕ) (h : n < cfg2.N) (r k : ℕ) (hr : r < 2048) (hk : k < 128) :
    at2 (α := EReal) (iblk2 V c 0 ⟨n, h⟩ : Vec Ideal S2048x128 .f32) r k = at2 (arrX V c) (n / 32 * 2048 + r) (n % 32 * 128 + k) := by
  have hN : n < 64 := lt_of_lt_of_eq h N_2
  obtain ⟨e0, e1, -⟩ := idx_facts ⟨n, h⟩
  dsimp only at e0 e1
  rw [at2_of_lt _ hr hk, at2_of_lt _ (show n / 32 * 2048 + r < 4096 by omega) (show n % 32 * 128 + k < 4096 by omega)]
  unfold iblk2
  rw [View.read_apply]
  show V c main_v8 _ = V c main_v8 _
  refine congrArg (V c main_v8) (funext fun a => Fin.ext ?_)
  match a with
  | ⟨0, _⟩ => show win2_0.index ⟨n, h⟩ (0 : Fin 2) * 2048 + 1 * r = n / 32 * 2048 + r; rw [e0]; omega
  | ⟨1, _⟩ => show win2_0.index ⟨n, h⟩ (1 : Fin 2) * 128 + 1 * k = n % 32 * 128 + k; rw [e1]; omega

/-- The weight block at point n: positions (n % 32)·128 + k, columns (n / 64)·2000 + j of the weights. -/
theorem blk1_at (n : ℕ) (h : n < cfg2.N) (k j : ℕ) (hk : k < 128) (hj : j < 2000) :
    at2 (α := EReal) (iblk2 V c 1 ⟨n, h⟩ : Vec Ideal S128x2000 .f32) k j = at2 (arrW V c) (n % 32 * 128 + k) (n / 64 * 2000 + j) := by
  have hN : n < 64 := lt_of_lt_of_eq h N_2
  obtain ⟨-, -, e0, e1, -⟩ := idx_facts ⟨n, h⟩
  dsimp only at e0 e1
  rw [at2_of_lt _ hk hj, at2_of_lt _ (show n % 32 * 128 + k < 4096 by omega) (show n / 64 * 2000 + j < 2000 by omega)]
  unfold iblk2
  rw [View.read_apply]
  show V c main_v4 _ = V c main_v4 _
  refine congrArg (V c main_v4) (funext fun a => Fin.ext ?_)
  match a with
  | ⟨0, _⟩ => show win2_1.index ⟨n, h⟩ (0 : Fin 2) * 128 + 1 * k = n % 32 * 128 + k; rw [e0]; omega
  | ⟨1, _⟩ => show win2_1.index ⟨n, h⟩ (1 : Fin 2) * 2000 + 1 * j = n / 64 * 2000 + j; rw [e1]; omega

/-- The bias block at point n: columns (n / 64)·2000 + j of the bias row. -/
theorem blk2_at (n : ℕ) (h : n < cfg2.N) (j : ℕ) (hj : j < 2000) :
    at2 (α := EReal) (iblk2 V c 2 ⟨n, h⟩ : Vec Ideal S1x2000 .f32) 0 j = at2 (arrB V c) 0 (n / 64 * 2000 + j) := by
  have hN : n < 64 := lt_of_lt_of_eq h N_2
  obtain ⟨-, -, -, -, e0, e1, -⟩ := idx_facts ⟨n, h⟩
  dsimp only at e0 e1
  rw [at2_of_lt _ (show 0 < 1 by omega) hj, at2_of_lt _ (show 0 < 1 by omega) (show n / 64 * 2000 + j < 2000 by omega)]
  unfold iblk2
  rw [View.read_apply]
  show V c main_v9 _ = V c main_v9 _
  refine congrArg (V c main_v9) (funext fun a => Fin.ext ?_)
  match a with
  | ⟨0, _⟩ => show win2_2.index ⟨n, h⟩ (0 : Fin 2) * 1 + 1 * 0 = 0; rw [e0]
  | ⟨1, _⟩ => show win2_2.index ⟨n, h⟩ (1 : Fin 2) * 2000 + 1 * j = n / 64 * 2000 + j; rw [e1]; omega

/-- One K-step's 128 products, read off the two blocks, are tile (n % 32) of the contraction. -/
theorem step_at (n : ℕ) (h : n < cfg2.N) (r : Fin 2048) (cc : Fin 2000) :
    ∑ k ∈ Finset.range 128, at2 (α := EReal) (iblk2 V c 0 ⟨n, h⟩ : Vec Ideal S2048x128 .f32) r.val k * at2 (α := EReal) (iblk2 V c 1 ⟨n, h⟩ : Vec Ideal S128x2000 .f32) k cc.val
      = ∑ k ∈ Finset.range 128, at2 (arrX V c) (n / 32 * 2048 + r.val) (n % 32 * 128 + k) * at2 (arrW V c) (n % 32 * 128 + k) (n / 64 * 2000 + cc.val) :=
  Finset.sum_congr rfl fun k hk => by
    rw [blk0_at V c n h r.val k r.isLt (Finset.mem_range.mp hk), blk1_at V c n h k cc.val (Finset.mem_range.mp hk) cc.isLt]

/-- After point n the output block holds, at (r, cc), the first (n % 32) + 1 tiles of the contraction of input
    row (n / 32)·2048 + r with weight column (n / 64)·2000 + cc; at the last K-step, the bias added and the maximum with zero taken. -/
theorem outsAt_eq (n : ℕ) : ∀ (h : n < cfg2.N) (r : Fin 2048) (cc : Fin 2000),
    (outsAt2 V c n h : Vec Ideal S2048x2000 .f32) (ix2 r cc) =
      if n % 32 = 31 then
        max (tileSum 128 (at2 (arrX V c)) (at2 (arrW V c)) (n / 32 * 2048 + r.val) (n / 64 * 2000 + cc.val) 32
          + at2 (arrB V c) 0 (n / 64 * 2000 + cc.val)) 0
      else tileSum 128 (at2 (arrX V c)) (at2 (arrW V c)) (n / 32 * 2048 + r.val) (n / 64 * 2000 + cc.val) (n % 32 + 1) := by
  induction n using Nat.strong_induction_on with
  | _ n ih =>
    intro h r cc
    have hN : n < 64 := lt_of_lt_of_eq h N_2
    by_cases h0 : n % 32 = 0
    · have h1 : ¬n % 32 = 31 := by omega
      rw [outsAt2_A V c ⟨n, h⟩ h0 h1, out_A, pay2_apply, pay1_apply, zero_add, step_at, if_neg h1, h0, tileSum_succ, tileSum_zero, zero_add]
    · have hp : n - 1 < cfg2.N := Nat.lt_of_le_of_lt (Nat.sub_le _ _) h
      have e1 : (n - 1) / 32 = n / 32 := by omega
      have e2 : (n - 1) / 64 = n / 64 := by omega
      have e3 : (n - 1) % 32 + 1 = n % 32 := by omega
      have hprev := ih (n - 1) (by omega) hp r cc
      rw [if_neg (by omega), e1, e2, e3] at hprev
      by_cases h1 : n % 32 = 31
      · rw [outsAt2_C V c ⟨n, h⟩ h0 h1, out_C, pay3_apply, pay2_apply, step_at, blk2_at V c n h cc.val cc.isLt, if_pos h1]
        rw [h1] at hprev ⊢
        rw [show (32 : ℕ) = 31 + 1 from rfl, tileSum_succ]
        exact congrArg (fun z => max (z + _ + _) 0) hprev
      · rw [outsAt2_B V c ⟨n, h⟩ h0 h1, out_B, pay2_apply, step_at, if_neg h1, tileSum_succ]
        exact congrArg (fun z => z + _) hprev

/-- An index of the output array is in point t's block iff each coordinate is in the block's range. -/
theorem mem_blk (t : Fin cfg2.N) (i : S4096x2000.Idx) :
    i ∈ ((cfg2.win 3).blk t).view.set ↔ ∀ a : Fin 2, win2_3.index t a * S2048x2000.size a ≤ (i a).val ∧ (i a).val < win2_3.index t a * S2048x2000.size a + S2048x2000.size a := by
  show i ∈ ((View.whole main_v10).slice (win2_3.rect t)).set ↔ _
  rw [View.set_slice_whole, Rect.mem_set_unit]
  exact Iff.rfl

/-- What a last K-step writes back is its block of the dense layer of the three input arrays. -/
theorem flushed_eq (t : Fin cfg2.N) (hf : (cfg2.win 3).flush t = true) :
    (dat2 V c).flushed 3 t = ((cfg2.win 3).blk t).view.read (Elt Ideal) (layer (fun z => max z 0) (arrX V c) (arrW V c) (arrB V c)) := by
  have hlast : t.val % 32 = 31 := (flush2_3 t).mp hf
  have hN : t.val < 64 := lt_of_lt_of_eq t.isLt N_2
  obtain ⟨-, -, -, -, -, -, e0, e1⟩ := idx_facts t
  show (cfg2.win 3).cut (grid2.coords t) ((dat2 V c).after 3 t) = _
  rw [after2_3]
  funext j
  obtain ⟨r, cc, rfl⟩ : ∃ (r : Fin 2048) (cc : Fin 2000), j = ix2 r cc := ⟨j 0, j 1, eq_ix2 j⟩
  show (outsAt2 V c t.val t.isLt : Vec Ideal S2048x2000 .f32) (ix2 r cc) = layer (fun z => max z 0) (arrX V c) (arrW V c) (arrB V c) (((cfg2.win 3).blk t).view.emb (ix2 r cc))
  rw [outsAt_eq V c t.val t.isLt r cc, if_pos hlast]
  have c0 : ((((cfg2.win 3).blk t).view.emb (ix2 r cc)) 0).val = t.val / 32 * 2048 + r.val := by
    show win2_3.index t (0 : Fin 2) * 2048 + 1 * r.val = _; rw [e0]; omega
  have c1 : ((((cfg2.win 3).blk t).view.emb (ix2 r cc)) 1).val = t.val / 64 * 2000 + cc.val := by
    show win2_3.index t (1 : Fin 2) * 2000 + 1 * cc.val = _; rw [e1]; omega
  unfold layer dense
  rw [c0, c1, tileSum_eq]

/-- The written-back blocks cover the output array. -/
theorem cover (i : S4096x2000.Idx) : ∃ t : Fin cfg2.N, (cfg2.win 3).flush t = true ∧ i ∈ ((cfg2.win 3).blk t).view.set := by
  have h0 : (i 0).val < 4096 := (i 0).isLt
  have h1 : (i 1).val < 2000 := (i 1).isLt
  have hlt : ((i 0).val / 2048 * 1 + (i 1).val / 2000) * 32 + 31 < cfg2.N := by rw [show cfg2.N = 64 from N_2]; omega
  obtain ⟨-, -, -, -, -, -, e0, e1⟩ := idx_facts ⟨_, hlt⟩
  dsimp only at e0 e1
  refine ⟨⟨_, hlt⟩, (flush2_3 _).mpr (by dsimp only; omega), ?_⟩
  rw [mem_blk]
  intro a
  match a with
  | ⟨0, _⟩ =>
    show win2_3.index ⟨_, hlt⟩ (0 : Fin 2) * 2048 ≤ (i 0).val ∧ (i 0).val < win2_3.index ⟨_, hlt⟩ (0 : Fin 2) * 2048 + 2048
    rw [e0]; omega
  | ⟨1, _⟩ =>
    show win2_3.index ⟨_, hlt⟩ (1 : Fin 2) * 2000 ≤ (i 1).val ∧ (i 1).val < win2_3.index ⟨_, hlt⟩ (1 : Fin 2) * 2000 + 2000
    rw [e1]; omega

/-- The output array after the region: the dense layer of the arrays the region found. -/
theorem final : (dat2 V c).arrAt 3 cfg2.N = layer (fun z => max z 0) (arrX V c) (arrW V c) (arrB V c) :=
  (dat2 V c).arrAt_eq_of_cover 3 _ (fun t hf => flushed_eq V c t hf) (cover)

end Cert.KernelIdeal.Layer2

end
-- ==== Proof.LibPadRead.lean ====
/-
  Zero padding and the one-row reshape, read by natural-number coordinates.

  An array padded on the high side of its axes with a value that is zero reads, at natural coordinates, exactly as
  the array itself does: inside the array the padded array is the array, and outside it both readings are zero
  (`at2_pad_high`, `at1_pad_high`). A vector reshaped to one row reads, in row 0, as the vector (`at2_row`).
-/
import proofs.«153553_j64785286692881_1_alg».proof.Proof.LibRangeSums
import Idealize.ShloMosaic.Lib.KernelVsHost
import Idealize.ShloMosaic.Lib.ValueLayout

namespace RangeSums

open Idealize.ShloMosaic Idealize.ShloMosaic.ValueIdx

/-- A rank-2 array padded on the high side only with a zero value reads as the array. -/
theorem at2_pad_high {α : Type} [Zero α] {a b a' b' : ℕ} (x : (⟨2, ![a, b]⟩ : Shape).Idx → α) (hi : Fin 2 → ℕ)
    {u : Shape} (v : u.Idx → α) (h : (⟨2, ![a, b]⟩ : Shape).Pads ![0, 0] hi ![0, 0] ⟨2, ![a', b']⟩) (hu : 0 < u.numel)
    (hv : v (Shape.Idx.first hu) = 0) (i j : ℕ) (hi' : i < a') (hj' : j < b') :
    at2 (pad ⟨2, ![a', b']⟩ ![0, 0] hi ![0, 0] x v h hu) i j = at2 x i j := by
  rw [at2_of_lt _ hi' hj']
  by_cases hin : i < a ∧ j < b
  · rw [at2_of_lt x hin.1 hin.2]
    refine pad_apply_of_inside _ _ _ x v h hu _ (ix2 ⟨i, hin.1⟩ ⟨j, hin.2⟩) fun ax => ?_
    match ax with
    | ⟨0, _⟩ => show i = 0 + i * (0 + 1); omega
    | ⟨1, _⟩ => show j = 0 + j * (0 + 1); omega
  · have hz : at2 x i j = 0 := by unfold at2; rw [dif_neg hin]
    rw [hz]
    by_cases h0 : i < a
    · have h1 : ¬j < b := fun hj => hin ⟨h0, hj⟩
      rw [pad_apply_of_not_inside _ _ _ x v h hu _ (1 : Fin 2) (by
        show ¬(0 ≤ j ∧ (j - 0) % (0 + 1) = 0 ∧ (j - 0) / (0 + 1) < b)
        intro hh; exact h1 (by have := hh.2.2; simpa using this))]
      exact hv
    · rw [pad_apply_of_not_inside _ _ _ x v h hu _ (0 : Fin 2) (by
        show ¬(0 ≤ i ∧ (i - 0) % (0 + 1) = 0 ∧ (i - 0) / (0 + 1) < a)
        intro hh; exact h0 (by have := hh.2.2; simpa using this))]
      exact hv

/-- A vector padded on the high side only with a zero value reads as the vector. -/
theorem at1_pad_high {α : Type} [Zero α] {a a' : ℕ} (x : (⟨1, ![a]⟩ : Shape).Idx → α) (hi : Fin 1 → ℕ)
    {u : Shape} (v : u.Idx → α) (h : (⟨1, ![a]⟩ : Shape).Pads ![0] hi ![0] ⟨1, ![a']⟩) (hu : 0 < u.numel)
    (hv : v (Shape.Idx.first hu) = 0) (i : ℕ) (hi' : i < a') :
    at1 (pad ⟨1, ![a']⟩ ![0] hi ![0] x v h hu) i = at1 x i := by
  rw [at1_of_lt _ hi']
  by_cases hin : i < a
  · rw [at1_of_lt x hin]
    refine pad_apply_of_inside _ _ _ x v h hu _ (ix1 ⟨i, hin⟩) fun ax => ?_
    match ax with
    | ⟨0, _⟩ => show i = 0 + i * (0 + 1); omega
  · have hz : at1 x i = 0 := by unfold at1; rw [dif_neg hin]
    rw [hz, pad_apply_of_not_inside _ _ _ x v h hu _ (0 : Fin 1) (by
      show ¬(0 ≤ i ∧ (i - 0) % (0 + 1) = 0 ∧ (i - 0) / (0 + 1) < a)
      intro hh; exact hin (by have := hh.2.2; simpa using this))]
    exact hv

/-- A vector reshaped to one row reads, in row 0, as the vector. -/
theorem at2_row {α : Type} [Zero α] {n : ℕ} (v : (⟨1, ![n]⟩ : Shape).Idx → α)
    (h : (⟨1, ![n]⟩ : Shape).ShapeCasts ⟨2, ![1, n]⟩) (j : ℕ) :
    at2 (shapeCast ⟨2, ![1, n]⟩ v h) 0 j = at1 v j := by
  by_cases hj : j < n
  · rw [at2_of_lt _ (show 0 < 1 by omega) hj, at1_of_lt v hj]
    exact shapeCast_a_1a_apply v h ⟨0, by omega⟩ ⟨j, hj⟩
  · unfold at2 at1
    rw [dif_neg (fun hh => hj hh.2), dif_neg hj]

end RangeSums
-- ==== Proof.MlpSpec.lean ====
/-
  The three-layer network as one function of its seven arguments, on the extended reals, and its form with
  zero-padded weights.

  h1 = X·Win + bin, h2 = max(h1·W1 + b1, 0), h3 = max(h2·W2 + b2, 0), each a dense layer over arrays read by
  natural coordinates (`result` is h3 as a [4096, 2000] array). The padded form contracts the second and third
  layers over 4096 positions instead of 4000, with weights and bias rows that read as the unpadded ones: the 96
  extra products have a zero weight, so each is zero whatever the activation beside it, and the contraction is
  unchanged (`padded_eq`). No finiteness is needed: zero times anything is zero on the extended reals, and
  regrouping a sum is sound there.
-/
import proofs.«153553_j64785286692881_1_alg».proof.Proof.LibDenseTiles

open scoped BigOperators

noncomputable section

namespace MlpSpec

open RangeSums DenseTiles Finset Idealize.ShloMosaic

/-- A dense layer depends on its three arrays only through the entries it reads. -/
theorem dense_ext (act : EReal → EReal) (K : ℕ) (x x' w w' : ℕ → ℕ → EReal) (b b' : ℕ → EReal) (i j : ℕ)
    (hx : ∀ k, k < K → x i k = x' i k) (hw : ∀ k, k < K → w k j = w' k j) (hb : b j = b' j) :
    dense act K x w b i j = dense act K x' w' b' i j := by
  unfold dense
  rw [hb]
  refine congrArg (fun s => act (s + b' j)) (sum_congr rfl fun k hk => ?_)
  rw [hx k (mem_range.mp hk), hw k (mem_range.mp hk)]

variable (X : (⟨2, ![4096, 32000]⟩ : Shape).Idx → EReal) (Win : (⟨2, ![32000, 4000]⟩ : Shape).Idx → EReal) (bin : (⟨1, ![4000]⟩ : Shape).Idx → EReal)
  (W1 : (⟨2, ![4000, 4000]⟩ : Shape).Idx → EReal) (b1 : (⟨1, ![4000]⟩ : Shape).Idx → EReal)
  (W2 : (⟨2, ![4000, 2000]⟩ : Shape).Idx → EReal) (b2 : (⟨1, ![2000]⟩ : Shape).Idx → EReal)

/-- The first layer: no rectifier. -/
def h1 (i j : ℕ) : EReal := dense id 32000 (at2 X) (at2 Win) (at1 bin) i j
/-- The second layer. -/
def h2 (i j : ℕ) : EReal := dense (fun z => max z 0) 4000 (h1 X Win bin) (at2 W1) (at1 b1) i j
/-- The third layer. -/
def h3 (i j : ℕ) : EReal := dense (fun z => max z 0) 4000 (h2 X Win bin W1 b1) (at2 W2) (at1 b2) i j
/-- The network's result as an array. -/
def result : (⟨2, ![4096, 2000]⟩ : Shape).Idx → EReal := fun i => h3 X Win bin W1 b1 W2 b2 (i 0).val (i 1).val

/-- A contraction over 4096 positions whose weights read as a 4000-row array's is the contraction over 4000. -/
theorem dense_4096 (act : EReal → EReal) {N : ℕ} (x : ℕ → ℕ → EReal) (w : (⟨2, ![4000, N]⟩ : Shape).Idx → EReal) (b : ℕ → EReal) (i j : ℕ) :
    dense act 4096 x (at2 w) b i j = dense act 4000 x (at2 w) b i j :=
  dense_pad act 4000 96 x (at2 w) (at2 w) b i j (fun _ _ => rfl) (fun k h1 _ => by
    unfold at2; rw [dif_neg (fun hh => by omega)])

variable (Wp0 : (⟨2, ![32000, 4096]⟩ : Shape).Idx → EReal) (B0 : (⟨2, ![1, 4096]⟩ : Shape).Idx → EReal)
  (Wp1 : (⟨2, ![4096, 4096]⟩ : Shape).Idx → EReal) (B1 : (⟨2, ![1, 4096]⟩ : Shape).Idx → EReal)
  (Wp2 : (⟨2, ![4096, 2000]⟩ : Shape).Idx → EReal) (B2 : (⟨2, ![1, 2000]⟩ : Shape).Idx → EReal)

/-- The layers computed with padded weights and one-row biases are the plain layers. -/
theorem padded_eq
    (e0 : ∀ k j, k < 32000 → j < 4096 → at2 Wp0 k j = at2 Win k j) (eb0 : ∀ j, j < 4096 → at2 B0 0 j = at1 bin j)
    (e1 : ∀ k j, k < 4096 → j < 4096 → at2 Wp1 k j = at2 W1 k j) (eb1 : ∀ j, j < 4096 → at2 B1 0 j = at1 b1 j)
    (e2 : ∀ k j, k < 4096 → j < 2000 → at2 Wp2 k j = at2 W2 k j) (eb2 : ∀ j, j < 2000 → at2 B2 0 j = at1 b2 j) :
    layer (fun z => max z 0) (layer (fun z => max z 0) (layer id X Wp0 B0) Wp1 B1) Wp2 B2 = result X Win bin W1 b1 W2 b2 := by
  have L1 : ∀ i j, i < 4096 → j < 4096 → at2 (layer id X Wp0 B0) i j = h1 X Win bin i j := fun i j hi hj => by
    rw [at2_layer id X Wp0 B0 hi hj]
    exact dense_ext id 32000 _ _ _ _ _ _ i j (fun _ _ => rfl) (fun k hk => e0 k j hk hj) (eb0 j hj)
  have L2 : ∀ i j, i < 4096 → j < 4096 → at2 (layer (fun z => max z 0) (layer id X Wp0 B0) Wp1 B1) i j = h2 X Win bin W1 b1 i j :=
    fun i j hi hj => by
      rw [at2_layer _ _ Wp1 B1 hi hj,
        dense_ext (fun z => max z 0) 4096 _ (at2 (layer id X Wp0 B0)) _ (at2 W1) _ (at1 b1) i j (fun _ _ => rfl) (fun k hk => e1 k j hk hj) (eb1 j hj),
        dense_4096]
      exact dense_ext _ 4000 _ _ _ _ _ _ i j (fun k hk => L1 i k hi (by omega)) (fun _ _ => rfl) rfl
  funext i
  have hi0 : (i 0).val < 4096 := (i 0).isLt
  have hi1 : (i 1).val < 2000 := (i 1).isLt
  show dense (fun z => max z 0) 4096 (at2 (layer (fun z => max z 0) (layer id X Wp0 B0) Wp1 B1)) (at2 Wp2) (at2 B2 0) (i 0).val (i 1).val
    = h3 X Win bin W1 b1 W2 b2 (i 0).val (i 1).val
  rw [dense_ext (fun z => max z 0) 4096 _ (at2 (layer (fun z => max z 0) (layer id X Wp0 B0) Wp1 B1)) _ (at2 W2) _ (at1 b2) (i 0).val (i 1).val
      (fun _ _ => rfl) (fun k hk => e2 k _ hk hi1) (eb2 _ hi1), dense_4096]
  exact dense_ext _ 4000 _ _ _ _ _ _ _ _ (fun k hk => L2 _ k hi0 (by omega)) (fun _ _ => rfl) rfl

end MlpSpec

end
-- ==== Proof.KernelWhole.lean ====
/-
  The idealized kernel's result, as a function of its arguments: the network's function. Region 2's output is the
  third layer of region 1's output, the row-padded third weights and the third bias as one row; region 1's output
  is the second layer of region 0's output, the padded second weights and the padded second bias as one row; region
  0's output is the first layer of the input, the column-padded first weights and the padded first bias as one row.
  The padding value is the integer zero converted, which is zero; so every padded array reads as its argument, and
  the padded layers are the plain ones.
-/
import proofs.«153553_j64785286692881_1_alg».proof.Proof.KernelFold
import proofs.«153553_j64785286692881_1_alg».proof.Proof.Layer0Run
import proofs.«153553_j64785286692881_1_alg».proof.Proof.Layer1Run
import proofs.«153553_j64785286692881_1_alg».proof.Proof.Layer2Run
import proofs.«153553_j64785286692881_1_alg».proof.Proof.LibPadRead
import proofs.«153553_j64785286692881_1_alg».proof.Proof.MlpSpec

set_option maxRecDepth 16384

noncomputable section

namespace Cert.KernelIdeal.Whole

open Cert.KernelIdeal Cert.KernelIdeal.Gen Cert.KernelIdeal.Fold Idealize.ShloMosaic Idealize.ShloMosaic.TcCoe Idealize.ShloMosaic.ValueIdx Idealize.SL.Sem
open RangeSums DenseTiles MlpSpec

variable (m : (ℓ : Loc nD τ sig) → Buf (Elt Ideal) ℓ) (ρ : Dev nD → PrngReg) (c : Dev nD)

/-- The padding value: the integer zero, converted. -/
abbrev zpad : S_.Idx → EReal := sitofp (F := Ideal) .f32 (constantI S_ 32 0#32)

theorem zpad_first : zpad (Shape.Idx.first h_S_) = 0 := by
  show (Scalar.sitofp .f32 (0#32) : Ideal .f32) = 0
  exact sitofp_zero

/-- The arguments. -/
abbrev aX : S4096x32000.Idx → EReal := (m ((c : Thread nD τ).loc main_arg0))
abbrev aWin : S32000x4000.Idx → EReal := (m ((c : Thread nD τ).loc main_arg1))
abbrev abin : S4000.Idx → EReal := (m ((c : Thread nD τ).loc main_arg2))
abbrev aW1 : S4000x4000.Idx → EReal := (m ((c : Thread nD τ).loc main_arg3))
abbrev ab1 : S4000.Idx → EReal := (m ((c : Thread nD τ).loc main_arg4))
abbrev aW2 : S4000x2000.Idx → EReal := (m ((c : Thread nD τ).loc main_arg5))
abbrev ab2 : S2000.Idx → EReal := (m ((c : Thread nD τ).loc main_arg6))

/-- The padded weights and the one-row biases, as functions of the arguments. -/
abbrev pW0 : S32000x4096.Idx → EReal := pad S32000x4096 ![0, 0] ![0, 96] ![0, 0] (aWin m c) zpad pads_S32000x4000_S32000x4096_000_0960 h_S_
abbrev pW1 : S4096x4096.Idx → EReal := pad S4096x4096 ![0, 0] ![96, 96] ![0, 0] (aW1 m c) zpad pads_S4000x4000_S4096x4096_0960_0960 h_S_
abbrev pW2 : S4096x2000.Idx → EReal := pad S4096x2000 ![0, 0] ![96, 0] ![0, 0] (aW2 m c) zpad pads_S4000x2000_S4096x2000_0960_000 h_S_
abbrev rB0 : S1x4096.Idx → EReal := shapeCast S1x4096 (pad S4096 ![0] ![96] ![0] (abin m c) zpad pads_S4000_S4096_0960 h_S_) shapeCasts_S4096_S1x4096
abbrev rB1 : S1x4096.Idx → EReal := shapeCast S1x4096 (pad S4096 ![0] ![96] ![0] (ab1 m c) zpad pads_S4000_S4096_0960 h_S_) shapeCasts_S4096_S1x4096
abbrev rB2 : S1x2000.Idx → EReal := shapeCast S1x2000 (ab2 m c) shapeCasts_S2000_S1x2000

/-! ## What each region finds -/

theorem in0_X : (V11 m ρ c main_arg0 : S4096x32000.Idx → EReal) = aX m c := arg0_at11 m ρ c

theorem in0_W : (V11 m ρ c main_v0 : S32000x4096.Idx → EReal) = pW0 m c := by
  have hc : W1 m ρ c (Proc.devRef .tc main_c) = constantI S_ 32 0#32 := zero_c (W0 m ρ c)
  have ha : W1 m ρ c (Proc.devRef .tc main_arg1) = aWin m c := arg1_at1 m ρ c
  refine (v0_at11 m ρ c).trans ((pad_v0 (W1 m ρ c)).trans ?_)
  rw [hc, ha]

theorem in0_B : (V11 m ρ c main_v5 : S1x4096.Idx → EReal) = rB0 m c := by
  have hc : W3 m ρ c (Proc.devRef .tc main_c_0) = constantI S_ 32 0#32 := zero_c_0 (W2 m ρ c)
  have ha : W3 m ρ c (Proc.devRef .tc main_arg2) = abin m c := arg2_at3 m ρ c
  have hv : W10 m ρ c (Proc.devRef .tc main_v1) = pad S4096 ![0] ![96] ![0] (abin m c) zpad pads_S4000_S4096_0960 h_S_ := by
    refine (v1_at10 m ρ c).trans ((pad_v1 (W3 m ρ c)).trans ?_)
    rw [hc, ha]
  refine (row_v5 (W10 m ρ c)).trans ?_
  rw [hv]

theorem in1_W : (V13 m ρ c main_v2 : S4096x4096.Idx → EReal) = pW1 m c := by
  have hc : W5 m ρ c (Proc.devRef .tc main_c_1) = constantI S_ 32 0#32 := zero_c_1 (W4 m ρ c)
  have ha : W5 m ρ c (Proc.devRef .tc main_arg3) = aW1 m c := arg3_at5 m ρ c
  refine (v2_at13 m ρ c).trans ((pad_v2 (W5 m ρ c)).trans ?_)
  rw [hc, ha]

theorem in1_B : (V13 m ρ c main_v7 : S1x4096.Idx → EReal) = rB1 m c := by
  have hc : W7 m ρ c (Proc.devRef .tc main_c_2) = constantI S_ 32 0#32 := zero_c_2 (W6 m ρ c)
  have ha : W7 m ρ c (Proc.devRef .tc main_arg4) = ab1 m c := arg4_at7 m ρ c
  have hv : W12 m ρ c (Proc.devRef .tc main_v3) = pad S4096 ![0] ![96] ![0] (ab1 m c) zpad pads_S4000_S4096_0960 h_S_ := by
    refine (v3_at12 m ρ c).trans ((pad_v3 (W7 m ρ c)).trans ?_)
    rw [hc, ha]
  refine (row_v7 (W12 m ρ c)).trans ?_
  rw [hv]

theorem in2_W : (V15 m ρ c main_v4 : S4096x2000.Idx → EReal) = pW2 m c := by
  have hc : W9 m ρ c (Proc.devRef .tc main_c_3) = constantI S_ 32 0#32 := zero_c_3 (W8 m ρ c)
  have ha : W9 m ρ c (Proc.devRef .tc main_arg5) = aW2 m c := arg5_at9 m ρ c
  refine (v4_at15 m ρ c).trans ((pad_v4 (W9 m ρ c)).trans ?_)
  rw [hc, ha]

theorem in2_B : (V15 m ρ c main_v9 : S1x2000.Idx → EReal) = rB2 m c := by
  have ha : W14 m ρ c (Proc.devRef .tc main_arg6) = ab2 m c := arg6_at14 m ρ c
  refine (row_v9 (W14 m ρ c)).trans ?_
  rw [ha]

/-! ## The three outputs -/

/-- Region 0's output, as region 1 finds it: the first layer over the padded arrays. -/
theorem out0_eq : (V13 m ρ c main_v6 : S4096x4096.Idx → EReal) = layer id (aX m c) (pW0 m c) (rB0 m c) := by
  refine (v6_at13 m ρ c).trans ((W12_arr m ρ c 3).trans ((Layer0.final (V11 m ρ) c).trans ?_))
  show layer id (V11 m ρ c main_arg0 : S4096x32000.Idx → EReal) (V11 m ρ c main_v0 : S32000x4096.Idx → EReal) (V11 m ρ c main_v5 : S1x4096.Idx → EReal) = _
  rw [in0_X, in0_W, in0_B]

/-- Region 1's output, as region 2 finds it: the second layer over region 0's output and the padded arrays. -/
theorem out1_eq : (V15 m ρ c main_v8 : S4096x4096.Idx → EReal)
    = layer (fun z => max z 0) (layer id (aX m c) (pW0 m c) (rB0 m c)) (pW1 m c) (rB1 m c) := by
  refine (v8_at15 m ρ c).trans ((W14_arr m ρ c 3).trans ((Layer1.final (V13 m ρ) c).trans ?_))
  show layer (fun z => max z 0) (V13 m ρ c main_v6 : S4096x4096.Idx → EReal) (V13 m ρ c main_v2 : S4096x4096.Idx → EReal) (V13 m ρ c main_v7 : S1x4096.Idx → EReal) = _
  rw [out0_eq, in1_W, in1_B]

/-- The result buffer at the end: the third layer over region 1's output and the padded arrays. -/
theorem out2_eq : (W16 m ρ c (Proc.devRef .tc main_v10) : S4096x2000.Idx → EReal)
    = layer (fun z => max z 0) (layer (fun z => max z 0) (layer id (aX m c) (pW0 m c) (rB0 m c)) (pW1 m c) (rB1 m c)) (pW2 m c) (rB2 m c) := by
  refine (W16_arr m ρ c 3).trans ((Layer2.final (V15 m ρ) c).trans ?_)
  show layer (fun z => max z 0) (V15 m ρ c main_v8 : S4096x4096.Idx → EReal) (V15 m ρ c main_v4 : S4096x2000.Idx → EReal) (V15 m ρ c main_v9 : S1x2000.Idx → EReal) = _
  rw [out1_eq, in2_W, in2_B]

/-- The result buffer at the end is the network's function of the arguments. -/
theorem result_eq : (W16 m ρ c (Proc.devRef .tc main_v10) : S4096x2000.Idx → EReal)
    = result (aX m c) (aWin m c) (abin m c) (aW1 m c) (ab1 m c) (aW2 m c) (ab2 m c) := by
  rw [out2_eq]
  refine padded_eq _ _ _ _ _ _ _ _ _ _ _ _ _
    (fun k j hk hj => at2_pad_high (aWin m c) _ zpad _ h_S_ zpad_first k j hk hj)
    (fun j hj => (at2_row _ _ j).trans (at1_pad_high (abin m c) _ zpad _ h_S_ zpad_first j hj))
    (fun k j hk hj => at2_pad_high (aW1 m c) _ zpad _ h_S_ zpad_first k j hk hj)
    (fun j hj => (at2_row _ _ j).trans (at1_pad_high (ab1 m c) _ zpad _ h_S_ zpad_first j hj))
    (fun k j hk hj => at2_pad_high (aW2 m c) _ zpad _ h_S_ zpad_first k j hk hj)
    (fun j hj => at2_row _ _ j)

end Cert.KernelIdeal.Whole

end
-- ==== Proof.RefLayers.lean ====
/-
  The reference, read at an index: each of its three stages is the corresponding layer of the network's function
  over its arguments read by natural coordinates. A host product at (p, q) is the sum over the contracted position
  of the left operand's row p times the right operand's column q; the bias is broadcast along rows; the rectifier
  is the maximum with a broadcast zero.
-/
import proofs.«153553_j64785286692881_1_alg».proof.Proof.Gen.ReferenceIdeal.Read
import proofs.«153553_j64785286692881_1_alg».proof.Proof.MlpSpec
import Idealize.ShloMosaic.PureOps.Ideal.Laws

noncomputable section

namespace Cert.ReferenceIdeal.RefLayers

open Cert.ReferenceIdeal Cert.ReferenceIdeal.Read Idealize.ShloMosaic Idealize.ShloMosaic.ValueIdx RangeSums DenseTiles MlpSpec

variable (x0 : S4096x32000.Idx → EReal) (x1 : S32000x4000.Idx → EReal) (x2 : S4000.Idx → EReal)
  (x3 : S4000x4000.Idx → EReal) (x4 : S4000.Idx → EReal) (x5 : S4000x2000.Idx → EReal) (x6 : S2000.Idx → EReal)

/-- The first stage at (p, q) is the first layer there. -/
theorem stage1_at (p : Fin 4096) (q : Fin 4000) :
    val_main_v3 (F := Ideal) x0 x1 x2 (ix2 p q) = h1 x0 x1 x2 p.val q.val := by
  rw [val_main_v3_apply, val_main_v0_apply, val_main_v2_apply, val_main_v1_apply]
  unfold h1 dense
  rw [← sum_fin_eq_range (fun k => at2 x0 p.val k * at2 x1 k q.val) 32000, at1_ix x2 q]
  show (∑ k : Fin 32000, x0 (lidx_main_v0 (ix2 p q) k) * x1 (ridx_main_v0 (ix2 p q) k)) + x2 (idx_main_v1 (idx_main_v2 (ix2 p q)))
    = (∑ k : Fin 32000, at2 x0 p.val k.val * at2 x1 k.val q.val) + x2 (ix1 q)
  refine congrArg₂ (· + ·) (Finset.sum_congr rfl fun k _ => ?_) (congrArg x2 (funext fun a => match a with | ⟨0, _⟩ => rfl))
  rw [at2_ix, at2_ix]
  exact congrArg₂ (· * ·) (congrArg x0 (funext fun a => match a with | ⟨0, _⟩ => rfl | ⟨1, _⟩ => rfl))
    (congrArg x1 (funext fun a => match a with | ⟨0, _⟩ => rfl | ⟨1, _⟩ => rfl))

/-- The second stage at (p, q) is the second layer there. -/
theorem stage2_at (p : Fin 4096) (q : Fin 4000) :
    val_main_v8 (F := Ideal) x0 x1 x2 x3 x4 (ix2 p q) = h2 x0 x1 x2 x3 x4 p.val q.val := by
  rw [val_main_v8_apply, val_main_v7_apply, val_main_v4_apply, val_main_v6_apply, val_main_v5_apply, val_main_call0_v0_apply,
    val_main_call0_cst_apply]
  unfold h2 dense
  rw [← sum_fin_eq_range (fun k => h1 x0 x1 x2 p.val k * at2 x3 k q.val) 4000, at1_ix x4 q]
  show max ((∑ k : Fin 4000, val_main_v3 (F := Ideal) x0 x1 x2 (lidx_main_v4 (ix2 p q) k) * x3 (ridx_main_v4 (ix2 p q) k))
      + x4 (idx_main_v5 (idx_main_v6 (ix2 p q)))) (Ideal.ofBits .f32 0x00000000#32)
    = max ((∑ k : Fin 4000, h1 x0 x1 x2 p.val k.val * at2 x3 k.val q.val) + x4 (ix1 q)) 0
  rw [Ideal.ofBits_zero_f32]
  refine congrArg (fun z => max z 0) (congrArg₂ (· + ·) (Finset.sum_congr rfl fun k _ => ?_)
    (congrArg x4 (funext fun a => match a with | ⟨0, _⟩ => rfl)))
  rw [← stage1_at x0 x1 x2 p k, at2_ix]
  exact congrArg₂ (· * ·) (congrArg (val_main_v3 (F := Ideal) x0 x1 x2) (funext fun a => match a with | ⟨0, _⟩ => rfl | ⟨1, _⟩ => rfl))
    (congrArg x3 (funext fun a => match a with | ⟨0, _⟩ => rfl | ⟨1, _⟩ => rfl))

/-- The reference's result is the network's function of its arguments. -/
theorem result_eq :
    val_main_v13 (F := Ideal) x0 x1 x2 x3 x4 x5 x6 = result x0 x1 x2 x3 x4 x5 x6 := by
  funext i
  obtain ⟨p, q, rfl⟩ : ∃ (p : Fin 4096) (q : Fin 2000), i = ix2 p q := ⟨i 0, i 1, eq_ix2 i⟩
  rw [val_main_v13_apply, val_main_v12_apply, val_main_v9_apply, val_main_v11_apply, val_main_v10_apply, val_main_call1_v0_apply,
    val_main_call1_cst_apply]
  unfold result h3 dense
  show max ((∑ k : Fin 4000, val_main_v8 (F := Ideal) x0 x1 x2 x3 x4 (lidx_main_v9 (ix2 p q) k) * x5 (ridx_main_v9 (ix2 p q) k))
      + x6 (idx_main_v10 (idx_main_v11 (ix2 p q)))) (Ideal.ofBits .f32 0x00000000#32)
    = max ((∑ k ∈ Finset.range 4000, h2 x0 x1 x2 x3 x4 p.val k * at2 x5 k q.val) + at1 x6 q.val) 0
  rw [Ideal.ofBits_zero_f32, ← sum_fin_eq_range (fun k => h2 x0 x1 x2 x3 x4 p.val k * at2 x5 k q.val) 4000, at1_ix x6 q]
  refine congrArg (fun z => max z 0) (congrArg₂ (· + ·) (Finset.sum_congr rfl fun k _ => ?_)
    (congrArg x6 (funext fun a => match a with | ⟨0, _⟩ => rfl)))
  rw [← stage2_at x0 x1 x2 x3 x4 p k, at2_ix]
  exact congrArg₂ (· * ·) (congrArg (val_main_v8 (F := Ideal) x0 x1 x2 x3 x4) (funext fun a => match a with | ⟨0, _⟩ => rfl | ⟨1, _⟩ => rfl))
    (congrArg x5 (funext fun a => match a with | ⟨0, _⟩ => rfl | ⟨1, _⟩ => rfl))

end Cert.ReferenceIdeal.RefLayers

end
-- ==== Proof.lean ====
/-
  A three-layer network, X·Win + bin, then max(·W1 + b1, 0), then max(·W2 + b2, 0), over f32[4096, 32000] inputs
  with hidden widths 4000, 4000 and output width 2000: a kernel of three tiled matrix products against the plain
  reference.

  The kernel pads the hidden width 4000 to 4096 with zeros (the first weights' columns, the second weights' rows and
  columns, the third weights' rows, the first two biases) and runs each layer as one region over a grid of
  (row block, column block, K-step): the output block is reset at the first K-step, a [2048, 128] × [128, n] block
  product is added at every K-step, and at the last K-step the bias row is added and, in the second and third
  layers, the maximum with zero is taken; the block is written back after the last K-step. At the ideal instance a
  change of float format is the identity and every operation is exact, so after a region the output array is the
  dense layer of the three arrays the region read: the K-steps' partial sums are the contraction summed tile by
  tile, and the written-back blocks cover the array. A padded weight reads as the unpadded one with zeros beyond
  it, so the 96 extra products of the longer contraction are each a product with zero, which is zero on the
  extended reals whatever the other factor; the padded layers are therefore the plain layers, and the kernel's
  result is the same function of the seven arguments as the reference's three host products, broadcast biases and
  maxima with zero. No finiteness of the inputs is used: only commutativity and associativity of the sum and
  x · 0 = 0.

  The ideal pass rewrote nothing, so the idealization claim is trivial; the two kernel programs' frame claims
  are the generated frame run's, and the reference's is its generated run with the result dropped.
-/
import proofs.«153553_j64785286692881_1_alg».proof.Defs
import proofs.«153553_j64785286692881_1_alg».proof.Proof.Gen.Kernel
import proofs.«153553_j64785286692881_1_alg».proof.Proof.Gen.Kernel.Skeleton
import proofs.«153553_j64785286692881_1_alg».proof.Proof.Gen.Kernel.Launch
import proofs.«153553_j64785286692881_1_alg».proof.Proof.Gen.Kernel.Points
import proofs.«153553_j64785286692881_1_alg».proof.Proof.Gen.Kernel.Frame
import proofs.«153553_j64785286692881_1_alg».proof.Proof.Gen.KernelIdeal
import proofs.«153553_j64785286692881_1_alg».proof.Proof.Gen.KernelIdeal.Skeleton
import proofs.«153553_j64785286692881_1_alg».proof.Proof.Gen.KernelIdeal.Launch
import proofs.«153553_j64785286692881_1_alg».proof.Proof.Gen.KernelIdeal.Points
import proofs.«153553_j64785286692881_1_alg».proof.Proof.Gen.KernelIdeal.Frame
import proofs.«153553_j64785286692881_1_alg».proof.Proof.Gen.ReferenceIdeal
import proofs.«153553_j64785286692881_1_alg».proof.Proof.Gen.ReferenceIdeal.Run
import proofs.«153553_j64785286692881_1_alg».proof.Proof.Gen.ReferenceIdeal.Read
import proofs.«153553_j64785286692881_1_alg».proof.Proof.Gen.Pre_finite_inputs
import proofs.«153553_j64785286692881_1_alg».proof.Proof.KernelRun
import proofs.«153553_j64785286692881_1_alg».proof.Proof.KernelWhole
import proofs.«153553_j64785286692881_1_alg».proof.Proof.RefLayers
import Idealize.ShloMosaic.Adequacy
import Idealize.ShloMosaic.Init

noncomputable section

namespace Cert.Proof

open Idealize.ShloMosaic Idealize.ShloMosaic.TcCoe Idealize.SL.Sem

/-- The word-level kernel runs and leaves its arguments alone. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten. -/
theorem preserves : Cert.preserves_Kernel_KernelIdeal := trivial

/-- At the ideal instance both programs end with the network's function of the arguments in their result. -/
theorem algebraic : Cert.algebraic_KernelIdeal_ReferenceIdeal := by
  intro m ρ m' ρ' _ hagree
  refine ⟨fun c => Cert.KernelIdeal.Gen.W16 m ρ c (Proc.devRef .tc Cert.KernelIdeal.main_v10),
    Cert.KernelIdeal.Named.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v13_eq, Cert.ReferenceIdeal.RefLayers.result_eq, a0, a1, a2, a3, a4, a5, a6]
  exact (Cert.KernelIdeal.Whole.result_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
